-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S64x64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S200000x64 .f32) (main_arg1 : FVec F S50000x64 .f32) (main_arg2 : IVec S1000000 32) (main_arg3 : IVec S1000000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S200000x64 : Shape := ⟨2, ![200000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S50000 : Shape := ⟨1, ![50000]⟩
abbrev S1000000x1 : Shape := ⟨2, ![1000000, 1]⟩
abbrev S200000 : Shape := ⟨1, ![200000]⟩
abbrev S10000x64 : Shape := ⟨2, ![10000, 64]⟩
abbrev S1x64 : Shape := ⟨2, ![1, 64]⟩
abbrev S1000000x64 : Shape := ⟨2, ![1000000, 64]⟩
abbrev S200000x1 : Shape := ⟨2, ![200000, 1]⟩
abbrev S10000x1 : Shape := ⟨2, ![10000, 1]⟩
abbrev S50000x1 : Shape := ⟨2, ![50000, 1]⟩

abbrev nBuf : Space → Nat
  | .hbm => 86
  | .vmem => 56
  | .smem => 0
  | _ => 0

abbrev bufTy : (tb : Table) → Fin (tcTables nBuf tb) → BufTy
  | .hbm, ⟨0, _⟩ => ⟨S200000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S50000, .f32⟩
  | .hbm, ⟨16, _⟩ => ⟨S1000000x1, .i32⟩
  | .hbm, ⟨17, _⟩ => ⟨S50000, .f32⟩
  | .hbm, ⟨18, _⟩ => ⟨S_, .f32⟩
  | .hbm, ⟨19, _⟩ => ⟨S200000, .f32⟩
  | .hbm, ⟨20, _⟩ => ⟨S1000000x1, .i32⟩
  | .hbm, ⟨21, _⟩ => ⟨S200000, .f32⟩
  | .hbm, ⟨22, _⟩ => ⟨S50000x64, .f32⟩
  | .hbm, ⟨23, _⟩ => ⟨S200000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x64, .f32⟩
  | .hbm, ⟨42, _⟩ => ⟨S_, .f32⟩
  | .hbm, ⟨43, _⟩ => ⟨S200000x64, .f32⟩
  | .hbm, ⟨44, _⟩ => ⟨S1000000x1, .i32⟩
  | .hbm, ⟨45, _⟩ => ⟨S200000x64, .f32⟩
  | .hbm, ⟨46, _⟩ => ⟨S_, .f32⟩
  | .hbm, ⟨47, _⟩ => ⟨S50000x64, .f32⟩
  | .hbm, ⟨48, _⟩ => ⟨S1000000x1, .i32⟩
  | .hbm, ⟨49, _⟩ => ⟨S50000x64, .f32⟩
  | .hbm, ⟨50, _⟩ => ⟨S200000x1, .f32⟩
  | .hbm, ⟨51, _⟩ => ⟨S200000x64, .f32⟩
  | .hbm, ⟨52, _⟩ => ⟨S50000x1, .f32⟩
  | .hbm, ⟨53, _⟩ => ⟨S50000x64, .f32⟩
  | .hbm, ⟨54, _⟩ => ⟨S50000x64, .f32⟩
  | .hbm, ⟨55, _⟩ => ⟨S200000x64, .f32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000x64, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x64, .f32⟩
  | .hbm, ⟨74, _⟩ => ⟨S_, .f32⟩
  | .hbm, ⟨75, _⟩ => ⟨S200000x64, .f32⟩
  | .hbm, ⟨76, _⟩ => ⟨S1000000x1, .i32⟩
  | .hbm, ⟨77, _⟩ => ⟨S200000x64, .f32⟩
  | .hbm, ⟨78, _⟩ => ⟨S_, .f32⟩
  | .hbm, ⟨79, _⟩ => ⟨S50000x64, .f32⟩
  | .hbm, ⟨80, _⟩ => ⟨S1000000x1, .i32⟩
  | .hbm, ⟨81, _⟩ => ⟨S50000x64, .f32⟩
  | .hbm, ⟨82, _⟩ => ⟨S200000x1, .f32⟩
  | .hbm, ⟨83, _⟩ => ⟨S200000x64, .f32⟩
  | .hbm, ⟨84, _⟩ => ⟨S50000x1, .f32⟩
  | .hbm, ⟨85, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x1, .f32⟩
  | .local _ .vmem, ⟨25, _⟩ => ⟨S10000x1, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S64x64, .f32⟩
  | .local _ .vmem, ⟨37, _⟩ => ⟨S64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x1, .f32⟩
  | .local _ .vmem, ⟨45, _⟩ => ⟨S10000x1, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S10000x1, .f32⟩
  | .local _ .vmem, ⟨53, _⟩ => ⟨S10000x1, .f32⟩
  | .local _ .vmem, ⟨54, _⟩ => ⟨S10000x64, .f32⟩
  | .local _ .vmem, ⟨55, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  bcast_S_S200000 : S_.BroadcastsInDim S200000 (![] : Fin 0 → Fin S200000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S200000x64 : S_.BroadcastsInDim S200000x64 (![] : Fin 0 → Fin S200000x64.rank)
  bcast_S_S50000x64 : S_.BroadcastsInDim S50000x64 (![] : Fin 0 → Fin S50000x64.rank)
  shapeCasts_S200000_S200000x1 : S200000.ShapeCasts S200000x1
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  shapeCasts_S50000_S50000x1 : S50000.ShapeCasts S50000x1
  scatter_S50000_S1000000x1_S1000000_n_0_0_1_wf : ScatterDims.WF S50000 S1000000x1 S1000000 [] [0] [0] 1
  scatter_S200000_S1000000x1_S1000000_n_0_0_1_wf : ScatterDims.WF S200000 S1000000x1 S1000000 [] [0] [0] 1
  dot_S10000x64_S64x64_S10000x64_1_0_0_1_n_n_wf : DotDims.WF S10000x64 S64x64 S10000x64 [1] [0] [0] [1] [] []
  gather_S50000x64_S1000000x1_S1000000x64_1_0_n_n_0_1_164_wf : GatherDims.WF S50000x64 S1000000x1 S1000000x64 [1] [0] [] [0] [] 1 ![1, 64]
  gather_S200000x64_S1000000x1_S1000000x64_1_0_n_n_0_1_164_wf : GatherDims.WF S200000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S50000x64_S1000000x1_S1000000x64_1_0_0_1_wf : ScatterDims.WF S50000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S200000x64.size a
  hwx1_3 : ∀ i : grid1.Coords, EltTy.bits .f32 = 32 ∨ (Rect.block (s := S200000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S200000x64.size a
  hwx2_1 : ∀ i : grid2.Coords, EltTy.bits .f32 = 32 ∨ (Rect.block (s := S200000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S200000x1.size a
  hwx2_2 : ∀ i : grid2.Coords, EltTy.bits .f32 = 32 ∨ (Rect.block (s := S200000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S200000x64.size a
  hwx2_3 : ∀ i : grid2.Coords, EltTy.bits .f32 = 32 ∨ (Rect.block (s := S200000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .f32 = 32 ∨ (Rect.block (s := S50000x1) S10000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S50000x64.size a
  hwx4_3 : ∀ i : grid4.Coords, EltTy.bits .f32 = 32 ∨ (Rect.block (s := S50000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S200000x64.size a
  hwx5_0 : ∀ i : grid5.Coords, EltTy.bits .f32 = 32 ∨ (Rect.block (s := S200000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S200000x64.size a
  hwx5_3 : ∀ i : grid5.Coords, EltTy.bits .f32 = 32 ∨ (Rect.block (s := S200000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S200000x64.size a
  hwx6_0 : ∀ i : grid6.Coords, EltTy.bits .f32 = 32 ∨ (Rect.block (s := S200000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S200000x64.size a
  hwx6_1 : ∀ i : grid6.Coords, EltTy.bits .f32 = 32 ∨ (Rect.block (s := S200000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S200000x1.size a
  hwx6_2 : ∀ i : grid6.Coords, EltTy.bits .f32 = 32 ∨ (Rect.block (s := S200000x1) S10000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S200000x64.size a
  hwx6_3 : ∀ i : grid6.Coords, EltTy.bits .f32 = 32 ∨ (Rect.block (s := S200000x64) S10000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S50000x64.size a
  hwx7_1 : ∀ i : grid7.Coords, EltTy.bits .f32 = 32 ∨ (Rect.block (s := S50000x64) S10000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x1.size a ≤ S50000x1.size a
  hwx7_2 : ∀ i : grid7.Coords, EltTy.bits .f32 = 32 ∨ (Rect.block (s := S50000x1) S10000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S50000x64.size a
  hwx7_3 : ∀ i : grid7.Coords, EltTy.bits .f32 = 32 ∨ (Rect.block (s := S50000x64) S10000x64.size (cc7_transform_3 i) (hinb7_3 i)).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf

abbrev win0_0 : Pipeline.Window sig grid0 :=
  Pipeline.Window.ofSpec (Memref.whole main_arg1) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v28) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v32) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v32) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v33) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v30) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v34) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v51) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v34) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v55) S10000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v56) S10000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v54) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v33) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v57) S10000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v58) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S200000x64 : Shape := ⟨2, ![200000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩
abbrev S50000 : Shape := ⟨1, ![50000]⟩
abbrev S200000 : Shape := ⟨1, ![200000]⟩
abbrev S50000x1 : Shape := ⟨2, ![50000, 1]⟩
abbrev S200000x1 : Shape := ⟨2, ![200000, 1]⟩

abbrev nBuf : Space → Nat
  | .hbm => 132
  | .vmem => 0
  | .smem => 0
  | _ => 0

abbrev hbmTy0_0 (i : Nat) : BufTy := match i % 128 with
  | 0 => ⟨S200000x64, .f32⟩
  | 1 => ⟨S50000x64, .f32⟩
  | 2 => ⟨S1000000, .i32⟩
  | 3 => ⟨S1000000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S50000x64, .f32⟩
  | 14 => ⟨S1x64, .f32⟩
  | 15 => ⟨S50000x64, .f32⟩
  | 16 => ⟨S50000x64, .f32⟩
  | 17 => ⟨S64x64, .f32⟩
  | 18 => ⟨S200000x64, .f32⟩
  | 19 => ⟨S1x64, .f32⟩
  | 20 => ⟨S200000x64, .f32⟩
  | 21 => ⟨S200000x64, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x64, .f32⟩
  | 31 => ⟨S_, .f32⟩
  | 32 => ⟨S200000x64, .f32⟩
  | 33 => ⟨S1000000x1, .i32⟩
  | 34 => ⟨S200000x64, .f32⟩
  | 35 => ⟨S200000x64, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x64, .f32⟩
  | 45 => ⟨S_, .f32⟩
  | 46 => ⟨S50000x64, .f32⟩
  | 47 => ⟨S1000000x1, .i32⟩
  | 48 => ⟨S50000x64, .f32⟩
  | 49 => ⟨S50000x64, .f32⟩
  | 50 => ⟨S_, .f32⟩
  | 51 => ⟨S1000000, .f32⟩
  | 52 => ⟨S_, .f32⟩
  | 53 => ⟨S50000, .f32⟩
  | 54 => ⟨S1000000x1, .i32⟩
  | 55 => ⟨S50000, .f32⟩
  | 56 => ⟨S_, .f32⟩
  | 57 => ⟨S200000, .f32⟩
  | 58 => ⟨S1000000x1, .i32⟩
  | 59 => ⟨S200000, .f32⟩
  | 60 => ⟨S_, .f32⟩
  | 61 => ⟨S50000, .f32⟩
  | 62 => ⟨S50000, .f32⟩
  | 63 => ⟨S50000x1, .f32⟩
  | 64 => ⟨S50000x64, .f32⟩
  | 65 => ⟨S50000x64, .f32⟩
  | 66 => ⟨S_, .f32⟩
  | 67 => ⟨S200000, .f32⟩
  | 68 => ⟨S200000, .f32⟩
  | 69 => ⟨S200000x1, .f32⟩
  | 70 => ⟨S200000x64, .f32⟩
  | 71 => ⟨S200000x64, .f32⟩
  | 72 => ⟨S64x64, .f32⟩
  | 73 => ⟨S50000x64, .f32⟩
  | 74 => ⟨S1x64, .f32⟩
  | 75 => ⟨S50000x64, .f32⟩
  | 76 => ⟨S50000x64, .f32⟩
  | 77 => ⟨S64x64, .f32⟩
  | 78 => ⟨S200000x64, .f32⟩
  | 79 => ⟨S1x64, .f32⟩
  | 80 => ⟨S200000x64, .f32⟩
  | 81 => ⟨S200000x64, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x64, .f32⟩
  | 91 => ⟨S_, .f32⟩
  | 92 => ⟨S200000x64, .f32⟩
  | 93 => ⟨S1000000x1, .i32⟩
  | 94 => ⟨S200000x64, .f32⟩
  | 95 => ⟨S200000x64, .f32⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S1000000x64, .f32⟩
  | 105 => ⟨S_, .f32⟩
  | 106 => ⟨S50000x64, .f32⟩
  | 107 => ⟨S1000000x1, .i32⟩
  | 108 => ⟨S50000x64, .f32⟩
  | 109 => ⟨S50000x64, .f32⟩
  | 110 => ⟨S_, .f32⟩
  | 111 => ⟨S1000000, .f32⟩
  | 112 => ⟨S_, .f32⟩
  | 113 => ⟨S50000, .f32⟩
  | 114 => ⟨S1000000x1, .i32⟩
  | 115 => ⟨S50000, .f32⟩
  | 116 => ⟨S_, .f32⟩
  | 117 => ⟨S200000, .f32⟩
  | 118 => ⟨S1000000x1, .i32⟩
  | 119 => ⟨S200000, .f32⟩
  | 120 => ⟨S_, .f32⟩
  | 121 => ⟨S50000, .f32⟩
  | 122 => ⟨S50000, .f32⟩
  | 123 => ⟨S50000x1, .f32⟩
  | 124 => ⟨S50000x64, .f32⟩
  | 125 => ⟨S50000x64, .f32⟩
  | 126 => ⟨S_, .f32⟩
  | 127 => ⟨S200000, .f32⟩
  | _ => ⟨S200000x64, .f32⟩

abbrev hbmTy0_1 (i : Nat) : BufTy := match i % 128 with
  | 0 => ⟨S200000, .f32⟩
  | 1 => ⟨S200000x1, .f32⟩
  | 2 => ⟨S200000x64, .f32⟩
  | 3 => ⟨S200000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_9 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_17 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_18 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_19 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S200000x64_0_1 : S1x64.BroadcastsInDim S200000x64 (![0, 1] : Fin 2 → Fin S200000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x64 : S_.BroadcastsInDim S200000x64 (![] : Fin 0 → Fin S200000x64.rank)
  bcast_S_S50000x64 : S_.BroadcastsInDim S50000x64 (![] : Fin 0 → Fin S50000x64.rank)
  bcast_S_S50000 : S_.BroadcastsInDim S50000 (![] : Fin 0 → Fin S50000.rank)
  bcast_S_S200000 : S_.BroadcastsInDim S200000 (![] : Fin 0 → Fin S200000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  dot_S50000x64_S64x64_S50000x64_1_0_0_1_n_n_wf : DotDims.WF S50000x64 S64x64 S50000x64 [1] [0] [0] [1] [] []
  dot_S200000x64_S64x64_S200000x64_1_0_0_1_n_n_wf : DotDims.WF S200000x64 S64x64 S200000x64 [1] [0] [0] [1] [] []
  gather_S50000x64_S1000000x1_S1000000x64_1_0_n_n_0_1_164_wf : GatherDims.WF S50000x64 S1000000x1 S1000000x64 [1] [0] [] [0] [] 1 ![1, 64]
  scatter_S200000x64_S1000000x1_S1000000x64_1_0_0_1_wf : ScatterDims.WF S200000x64 S1000000x1 S1000000x64 [1] [0] [0] 1
  gather_S200000x64_S1000000x1_S1000000x64_1_0_n_n_0_1_164_wf : GatherDims.WF S200000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  scatter_S200000_S1000000x1_S1000000_n_0_0_1_wf : ScatterDims.WF S200000 S1000000x1 S1000000 [] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf

class Facts : Prop extends Facts₀ where

variable [Facts]
-- ==== Proof.RunValues.lean ====
/-
  The idealized kernel's run with its two results named: every weakly fair execution of @main terminates, nothing
  faulting, and in the final state each result buffer holds what the last segment boundary's contents say (the fold of
  the host stretches and of the eight regions' write-backs from the launch memory), the arguments unchanged.
  The launch over the segments is the one of the frame; only what is read off the final state differs: here also
  the two result buffers, which are unscoped buffers like the arguments.
-/
import proofs.«152460_j42099269435817_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_values : θ_run defs (onTc (τ := τ) (main (F := F))) ⟨m, fun _ => 0, ρ⟩ (fun r => ∀ c : Dev nD,
      r.2.mem ((c.tc : Thread nD τ).loc main_v56) = W13 m ρ c (Proc.devRef .tc main_v56)
      ∧ r.2.mem ((c.tc : Thread nD τ).loc main_v58) = W13 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v56 (by decide)),
       h c _ (mem_uc main_v58 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.RunValue

end
-- ==== Proof.Spec.lean ====
/-
  The two-layer heterogeneous aggregation as ONE function of the twelve argument arrays, spelled with the host
  operations of the reference program, so that both programs' results can be stated by the same term.

  One layer, for user features xu [200000, 64], event features xe [50000, 64], edges (src into events, dst into users):
    lin x W b          = x · Wᵀ + b                        (row-wise affine map)
    aggU fe src dst    = Σ over edges e with dst e = u of fe (src e)      (gather rows by src, add them up by dst)
    aggE fu src dst    = Σ over edges e with src e = v of fu (dst e)
    degU dst, degE src = the number of edges at each user / event
    user'  = (aggU (lin xe) + lin xu) / (degU + 1),   event' = (aggE (lin xu) + lin xe) / (degE + 1)
  and the result is two such layers composed.
-/
import proofs.«152460_j42099269435817_2_alg».proof.ReferenceIdeal
import Idealize.ShloMosaic.PureOps.Ideal

noncomputable section

namespace Cert.Bridge

open Idealize.ShloMosaic Cert.ReferenceIdeal Cert.ReferenceIdeal.Facts₀ Cert.ReferenceIdeal.Facts

variable [Cert.ReferenceIdeal.Facts]

/-- Event rows through an affine map: x · Wᵀ + b. -/
def linE (x : FVec Ideal S50000x64 .f32) (W : FVec Ideal S64x64 .f32) (b : FVec Ideal S64 .f32) : FVec Ideal S50000x64 .f32 :=
  addf (Host.dotGeneral dot_S50000x64_S64x64_S50000x64_1_0_0_1_n_n none x (transpose S64x64 [1, 0] W transposes_S64x64_S64x64_1_0))
    (broadcastInDim S50000x64 ![0, 1] bcast_S1x64_S50000x64_0_1 (broadcastInDim S1x64 ![1] bcast_S64_S1x64_1 b))

/-- User rows through an affine map: x · Wᵀ + b. -/
def linU (x : FVec Ideal S200000x64 .f32) (W : FVec Ideal S64x64 .f32) (b : FVec Ideal S64 .f32) : FVec Ideal S200000x64 .f32 :=
  addf (Host.dotGeneral dot_S200000x64_S64x64_S200000x64_1_0_0_1_n_n none x (transpose S64x64 [1, 0] W transposes_S64x64_S64x64_1_0))
    (broadcastInDim S200000x64 ![0, 1] bcast_S1x64_S200000x64_0_1 (broadcastInDim S1x64 ![1] bcast_S64_S1x64_1 b))

/-- Event row numbers as a column, a negative one counted from the end. -/
def idxE (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 50000#32))) src)

/-- User row numbers as a column, a negative one counted from the end. -/
def idxU (dst : IVec S1000000 32) : IVec S1000000x1 32 :=
  broadcastInDim S1000000x1 ![0] bcast_S1000000_S1000000x1_0
    (select (cmpi .slt dst (broadcastInDim S1000000 ![] bcast_S_S1000000 (constantI S_ 32 0#32)))
      (addi dst (broadcastInDim S1000000 ![] bcast_S_S1000000 (constantI S_ 32 200000#32))) dst)

/-- For every user the sum of the event rows of its edges. -/
def aggU (fe : FVec Ideal S50000x64 .f32) (src dst : IVec S1000000 32) : FVec Ideal S200000x64 .f32 :=
  Host.scatterAdd scatter_S200000x64_S1000000x1_S1000000x64_1_0_0_1
    (broadcastInDim S200000x64 ![] bcast_S_S200000x64 (constant S_ .f32 0x00000000#32))
    (broadcastInDim S1000000x1 ![0] bcast_S1000000_S1000000x1_0 dst)
    (Host.gather gather_S50000x64_S1000000x1_S1000000x64_1_0_n_n_0_1_164 fe (idxE src))

/-- For every event the sum of the user rows of its edges. -/
def aggE (fu : FVec Ideal S200000x64 .f32) (src dst : IVec S1000000 32) : FVec Ideal S50000x64 .f32 :=
  Host.scatterAdd scatter_S50000x64_S1000000x1_S1000000x64_1_0_0_1
    (broadcastInDim S50000x64 ![] bcast_S_S50000x64 (constant S_ .f32 0x00000000#32))
    (broadcastInDim S1000000x1 ![0] bcast_S1000000_S1000000x1_0 src)
    (Host.gather gather_S200000x64_S1000000x1_S1000000x64_1_0_n_n_0_1_164 fu (idxU dst))

/-- The number of edges at each event. -/
def degE (src : IVec S1000000 32) : FVec Ideal S50000 .f32 :=
  Host.scatterAdd scatter_S50000_S1000000x1_S1000000_n_0_0_1
    (broadcastInDim S50000 ![] bcast_S_S50000 (constant S_ .f32 0x00000000#32))
    (broadcastInDim S1000000x1 ![0] bcast_S1000000_S1000000x1_0 src)
    (broadcastInDim S1000000 ![] bcast_S_S1000000 (constant S_ .f32 0x3F800000#32))

/-- The number of edges at each user. -/
def degU (dst : IVec S1000000 32) : FVec Ideal S200000 .f32 :=
  Host.scatterAdd scatter_S200000_S1000000x1_S1000000_n_0_0_1
    (broadcastInDim S200000 ![] bcast_S_S200000 (constant S_ .f32 0x00000000#32))
    (broadcastInDim S1000000x1 ![0] bcast_S1000000_S1000000x1_0 dst)
    (broadcastInDim S1000000 ![] bcast_S_S1000000 (constant S_ .f32 0x3F800000#32))

/-- Every event row divided by that event's degree plus one. -/
def normE (y : FVec Ideal S50000x64 .f32) (deg : FVec Ideal S50000 .f32) : FVec Ideal S50000x64 .f32 :=
  Host.divf y (broadcastInDim S50000x64 ![0, 1] bcast_S50000x1_S50000x64_0_1 (broadcastInDim S50000x1 ![0] bcast_S50000_S50000x1_0
    (addf deg (broadcastInDim S50000 ![] bcast_S_S50000 (constant S_ .f32 0x3F800000#32)))))

/-- Every user row divided by that user's degree plus one. -/
def normU (y : FVec Ideal S200000x64 .f32) (deg : FVec Ideal S200000 .f32) : FVec Ideal S200000x64 .f32 :=
  Host.divf y (broadcastInDim S200000x64 ![0, 1] bcast_S200000x1_S200000x64_0_1 (broadcastInDim S200000x1 ![0] bcast_S200000_S200000x1_0
    (addf deg (broadcastInDim S200000 ![] bcast_S_S200000 (constant S_ .f32 0x3F800000#32)))))

/-- One layer's new user features. -/
def layerU (xu : FVec Ideal S200000x64 .f32) (xe : FVec Ideal S50000x64 .f32) (Wu : FVec Ideal S64x64 .f32) (bu : FVec Ideal S64 .f32)
    (We : FVec Ideal S64x64 .f32) (be : FVec Ideal S64 .f32) (src dst : IVec S1000000 32) : FVec Ideal S200000x64 .f32 :=
  normU (addf (aggU (linE xe We be) src dst) (linU xu Wu bu)) (degU dst)

/-- One layer's new event features. -/
def layerE (xu : FVec Ideal S200000x64 .f32) (xe : FVec Ideal S50000x64 .f32) (Wu : FVec Ideal S64x64 .f32) (bu : FVec Ideal S64 .f32)
    (We : FVec Ideal S64x64 .f32) (be : FVec Ideal S64 .f32) (src dst : IVec S1000000 32) : FVec Ideal S50000x64 .f32 :=
  normE (addf (aggE (linU xu Wu bu) src dst) (linE xe We be)) (degE src)

end Cert.Bridge

end
-- ==== Proof.LibRowOps.lean ====
/-
  Row-wise operations on matrices of extended reals, generic in the sizes, each with the forms it takes in a program:
  on the host (broadcast_in_dim, dot_general) and inside a vector unit's body (shape casts, vector.broadcast, the matrix
  unit's product into a zero accumulator).

    reluRow a b     entry (r, c) is max (a(r, c) + b(0, c)) 0
    scaleRows g n   entry (r, c) is g(r, c) · n(r, 0):        every row of g scaled by that row's entry of the column n
    addRow a b      entry (r, c) is a(r, c) + b(0, c):        the row b added to every row of a
    matProd x w     entry (r, c) is ∑ k, x(r, k) · w(k, c):   the matrix product

  A column [A] cast to [A, 1] is the same array as that column broadcast along a new unit axis (colCast_eq_bcast), and
  likewise a row [B] cast to [1, B] (rowCast_eq_bcast).
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowOps

open Idealize.ShloMosaic Idealize.ShloMosaic.ValueIdx

/-- The entry of column 0 in the row of `i`. -/
abbrev col0 {A B : ℕ} (i : (⟨2, ![A, B]⟩ : Shape).Idx) : (⟨2, ![A, 1]⟩ : Shape).Idx :=
  ix2 (⟨(i 0).val, idx2_lt0 i⟩ : Fin A) (0 : Fin 1)

/-- The entry of row 0 in the column of `i`. -/
abbrev row0 {A B : ℕ} (i : (⟨2, ![A, B]⟩ : Shape).Idx) : (⟨2, ![1, B]⟩ : Shape).Idx :=
  ix2 (0 : Fin 1) (⟨(i 1).val, idx2_lt1 i⟩ : Fin B)

/-- Every row of `g` scaled by that row's entry of the column `n`. -/
def scaleRows {A B : ℕ} (g : (⟨2, ![A, B]⟩ : Shape).Idx → EReal) (n : (⟨2, ![A, 1]⟩ : Shape).Idx → EReal) :
    (⟨2, ![A, B]⟩ : Shape).Idx → EReal := fun i => g i * n (col0 i)

/-- The row `b` added to every row of `a`. -/
def addRow {A B : ℕ} (a : (⟨2, ![A, B]⟩ : Shape).Idx → EReal) (b : (⟨2, ![1, B]⟩ : Shape).Idx → EReal) :
    (⟨2, ![A, B]⟩ : Shape).Idx → EReal := fun i => a i + b (row0 i)

/-- The row `b` added to every row of `a`, then every entry cut off below at zero. -/
def reluRow {A B : ℕ} (a : (⟨2, ![A, B]⟩ : Shape).Idx → EReal) (b : (⟨2, ![1, B]⟩ : Shape).Idx → EReal) :
    (⟨2, ![A, B]⟩ : Shape).Idx → EReal := fun i => max (addRow a b i) (Ideal.ofBits .f32 0x00000000#32)

/-- The matrix product. -/
def matProd {A K B : ℕ} (x : (⟨2, ![A, K]⟩ : Shape).Idx → EReal) (w : (⟨2, ![K, B]⟩ : Shape).Idx → EReal) :
    (⟨2, ![A, B]⟩ : Shape).Idx → EReal :=
  fun i => ∑ k : Fin K, x (ix2 (⟨(i 0).val, idx2_lt0 i⟩ : Fin A) k) * w (ix2 k (⟨(i 1).val, idx2_lt1 i⟩ : Fin B))

/-! ## On the host -/

/-- A column [A, 1] broadcast to [A, B] along its unit axis reads, at `i`, the column's entry in the row of `i`. -/
theorem bcastCol_apply {A B : ℕ} (h : (⟨2, ![A, 1]⟩ : Shape).BroadcastsInDim ⟨2, ![A, B]⟩ ![0, 1])
    (n : (⟨2, ![A, 1]⟩ : Shape).Idx → EReal) (i : (⟨2, ![A, B]⟩ : Shape).Idx) :
    broadcastInDim ⟨2, ![A, B]⟩ ![0, 1] h n i = n (col0 i) :=
  broadcastInDim_apply _ h n i (col0 i) (fun a => match a with
    | ⟨0, _⟩ => by
      show (i 0).val = if A = 1 then 0 else (i 0).val
      split
      · have := idx2_lt0 i; omega
      · rfl
    | ⟨1, _⟩ => by show 0 = if (1 : ℕ) = 1 then 0 else (i 1).val; rw [if_pos rfl])

/-- The host's product of `g` with the column `n` broadcast over the columns is `scaleRows g n`. -/
theorem mulf_bcastCol {A B : ℕ} (h : (⟨2, ![A, 1]⟩ : Shape).BroadcastsInDim ⟨2, ![A, B]⟩ ![0, 1])
    (g : FVec Ideal ⟨2, ![A, B]⟩ .f32) (n : FVec Ideal ⟨2, ![A, 1]⟩ .f32) :
    mulf g (broadcastInDim ⟨2, ![A, B]⟩ ![0, 1] h n) = scaleRows g n :=
  funext fun i => by
    show g i * broadcastInDim ⟨2, ![A, B]⟩ ![0, 1] h n i = g i * n (col0 i)
    rw [bcastCol_apply]

/-- A row [1, B] broadcast to [A, B] along its unit axis reads, at `i`, the row's entry in the column of `i`. -/
theorem bcastRow_apply {A B : ℕ} (h : (⟨2, ![1, B]⟩ : Shape).BroadcastsInDim ⟨2, ![A, B]⟩ ![0, 1])
    (b : (⟨2, ![1, B]⟩ : Shape).Idx → EReal) (i : (⟨2, ![A, B]⟩ : Shape).Idx) :
    broadcastInDim ⟨2, ![A, B]⟩ ![0, 1] h b i = b (row0 i) :=
  broadcastInDim_apply _ h b i (row0 i) (fun a => match a with
    | ⟨0, _⟩ => by show 0 = if (1 : ℕ) = 1 then 0 else (i 0).val; rw [if_pos rfl]
    | ⟨1, _⟩ => by
      show (i 1).val = if B = 1 then 0 else (i 1).val
      split
      · have := idx2_lt1 i; omega
      · rfl)

/-- The host's sum of `a` with the row `b` broadcast over the rows is `addRow a b`. -/
theorem addf_bcastRow {A B : ℕ} (h : (⟨2, ![1, B]⟩ : Shape).BroadcastsInDim ⟨2, ![A, B]⟩ ![0, 1])
    (a : FVec Ideal ⟨2, ![A, B]⟩ .f32) (b : FVec Ideal ⟨2, ![1, B]⟩ .f32) :
    addf a (broadcastInDim ⟨2, ![A, B]⟩ ![0, 1] h b) = addRow a b :=
  funext fun i => by
    show a i + broadcastInDim ⟨2, ![A, B]⟩ ![0, 1] h b i = a i + b (row0 i)
    rw [bcastRow_apply]

/-- The host's maximum of `addRow a b` with the zero constant broadcast to the whole shape is `reluRow a b`. -/
theorem maximumf_bcastZero {A B : ℕ} (h : (⟨0, ![]⟩ : Shape).BroadcastsInDim ⟨2, ![A, B]⟩ ![])
    (a : (⟨2, ![A, B]⟩ : Shape).Idx → EReal) (b : (⟨2, ![1, B]⟩ : Shape).Idx → EReal) :
    maximumf (F := Ideal) (s := ⟨2, ![A, B]⟩) (φ := .f32) (addRow a b)
      (broadcastInDim ⟨2, ![A, B]⟩ ![] h (constant (F := Ideal) ⟨0, ![]⟩ .f32 0x00000000#32)) = reluRow a b :=
  funext fun i => rfl

/-- A column [A] cast to [A, 1] is that column broadcast along a new trailing unit axis. -/
theorem colCast_eq_bcast {A : ℕ} {α : Type} (hc : (⟨1, ![A]⟩ : Shape).ShapeCasts ⟨2, ![A, 1]⟩)
    (hb : (⟨1, ![A]⟩ : Shape).BroadcastsInDim ⟨2, ![A, 1]⟩ ![0]) (v : (⟨1, ![A]⟩ : Shape).Idx → α) :
    shapeCast ⟨2, ![A, 1]⟩ v hc = broadcastInDim ⟨2, ![A, 1]⟩ ![0] hb v :=
  funext fun i => by
    have hi1 : (i 1).val = 0 := by have := idx2_lt1 i; omega
    rw [shapeCast_apply v hc i (ix1 (⟨(i 0).val, idx2_lt0 i⟩ : Fin A)) (by
          rw [Shape.rowMajor_val_two, Shape.rowMajor_val_one]
          show (i 0).val = (i 0).val * 1 + (i 1).val
          rw [hi1, Nat.mul_one, Nat.add_zero]),
      broadcastInDim_apply _ hb v i (ix1 (⟨(i 0).val, idx2_lt0 i⟩ : Fin A)) (fun a => match a with
        | ⟨0, _⟩ => by
          show (i 0).val = if A = 1 then 0 else (i 0).val
          split
          · have := idx2_lt0 i; omega
          · rfl)]

/-- A row [B] cast to [1, B] is that row broadcast along a new leading unit axis. -/
theorem rowCast_eq_bcast {B : ℕ} {α : Type} (hc : (⟨1, ![B]⟩ : Shape).ShapeCasts ⟨2, ![1, B]⟩)
    (hb : (⟨1, ![B]⟩ : Shape).BroadcastsInDim ⟨2, ![1, B]⟩ ![1]) (v : (⟨1, ![B]⟩ : Shape).Idx → α) :
    shapeCast ⟨2, ![1, B]⟩ v hc = broadcastInDim ⟨2, ![1, B]⟩ ![1] hb v :=
  funext fun i => by
    have hi0 : (i 0).val = 0 := by have := idx2_lt0 i; omega
    rw [shapeCast_apply v hc i (ix1 (⟨(i 1).val, idx2_lt1 i⟩ : Fin B)) (by
          rw [Shape.rowMajor_val_two, Shape.rowMajor_val_one]
          show (i 1).val = (i 0).val * B + (i 1).val
          rw [hi0, Nat.zero_mul, Nat.zero_add]),
      broadcastInDim_apply _ hb v i (ix1 (⟨(i 1).val, idx2_lt1 i⟩ : Fin B)) (fun a => match a with
        | ⟨0, _⟩ => by
          show (i 1).val = if B = 1 then 0 else (i 1).val
          split
          · have := idx2_lt1 i; omega
          · rfl)]

/-- The host's `dot_general` of an [A, K] by a [K, B] matrix, contracting the one shared axis, is the matrix product:
    for any dimension record whose index facts say the left index takes the output row and the contraction position and
    the right index the contraction position and the output column. -/
theorem dotGeneral_eq_matProd {A K B : ℕ}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (sched : HostSchedule)
    (L : FVec Ideal ⟨2, ![A, K]⟩ .f32) (R : FVec Ideal ⟨2, ![K, B]⟩ .f32) :
    FloatOps.dotGeneral d prec sched L R = matProd L R :=
  funext fun i => by
    rw [Ideal.dotGeneral_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

/-! ## Inside a vector unit's body -/

/-- The body's product of a block `x0` with a column block `x1` broadcast over the columns is `scaleRows x0 x1`. -/
theorem mulf_broadcastTo_col {A B : ℕ} (h : (⟨2, ![A, 1]⟩ : Shape).Broadcasts ⟨2, ![A, B]⟩)
    (x0 : FVec Ideal ⟨2, ![A, B]⟩ .f32) (x1 : FVec Ideal ⟨2, ![A, 1]⟩ .f32) :
    mulf x0 (broadcastTo ⟨2, ![A, B]⟩ x1 h) = scaleRows x0 x1 :=
  funext fun i => by
    show x0 i * broadcastTo ⟨2, ![A, B]⟩ x1 h i = x0 i * x1 (col0 i)
    refine congrArg (x0 i * ·) (broadcastTo_apply x1 h i (col0 i) fun a => ?_)
    match a with
    | ⟨0, _⟩ =>
      show (i 0).val = if A = 1 then 0 else (i 0).val
      split
      · have := idx2_lt0 i; omega
      · rfl
    | ⟨1, _⟩ => rfl

/-- The body's sum of a block `x0` with a row block `x1` broadcast over the rows is `addRow x0 x1`. -/
theorem addf_broadcastTo_row {A B : ℕ} (h : (⟨2, ![1, B]⟩ : Shape).Broadcasts ⟨2, ![A, B]⟩)
    (x0 : FVec Ideal ⟨2, ![A, B]⟩ .f32) (x1 : FVec Ideal ⟨2, ![1, B]⟩ .f32) :
    addf x0 (broadcastTo ⟨2, ![A, B]⟩ x1 h) = addRow x0 x1 :=
  funext fun i => by
    show x0 i + broadcastTo ⟨2, ![A, B]⟩ x1 h i = x0 i + x1 (row0 i)
    refine congrArg (x0 i + ·) (broadcastTo_apply x1 h i (row0 i) fun a => ?_)
    match a with
    | ⟨0, _⟩ => rfl
    | ⟨1, _⟩ =>
      show (i 1).val = if B = 1 then 0 else (i 1).val
      split
      · have := idx2_lt1 i; omega
      · rfl

/-- The body's maximum of `addRow x0 x1` with the zero splat is `reluRow x0 x1`. -/
theorem maximumf_splatZero {A B : ℕ} (x0 : (⟨2, ![A, B]⟩ : Shape).Idx → EReal) (x1 : (⟨2, ![1, B]⟩ : Shape).Idx → EReal) :
    maximumf (F := Ideal) (s := ⟨2, ![A, B]⟩) (φ := .f32) (addRow x0 x1)
      (broadcast ⟨2, ![A, B]⟩ (Scalar.ofBits (F := Ideal) .f32 0x00000000#32)) = reluRow x0 x1 :=
  funext fun i => rfl

/-- The matrix unit's product into a zero accumulator is the matrix product (the operands' change of float format is
    the identity on extended reals), under the same index facts as `dotGeneral_eq_matProd`. -/
theorem matmul_eq_matProd {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) :
    FloatOps.matmul d prec L R (constant ⟨2, ![A, B]⟩ .f32 0x00000000#32) = matProd (fun j => L j) (fun j => R j) :=
  funext fun i => by
    rw [Ideal.matmul_constant_zero_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

end Cert.RowOps

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Blocks.lean ====
/-
  What one grid point's body computes, entry by entry, on the extended reals.

  The affine body: from a block of rows x [10000, 64], the weights W [64, 64] and the bias b [64] it stores
  x · Wᵀ + b — the rounding of the operands to bf16 is the identity on extended reals, the matrix unit's product into a
  zero accumulator is the plain sum over the contracted axis, the bias is added to every row:
      entry (r, q) = Σ k, x(r, k) · W(q, k) + b(q).
  The normalising body: from blocks raw, resid [10000, 64] and a column deg [10000, 1] it stores
      entry (r, q) = (raw(r, q) + resid(r, q)) / (deg(r, 0) + 1).
-/
import proofs.«152460_j42099269435817_2_alg».proof.Proof.Gen.KernelIdeal.Skeleton
import proofs.«152460_j42099269435817_2_alg».proof.Proof.LibRowOps
import proofs.«152460_j42099269435817_2_alg».proof.Proof.LibKeepdims

noncomputable section

namespace Cert.Blocks

open Idealize.ShloMosaic Idealize.ShloMosaic.ValueIdx Cert.RowOps
open Cert.KernelIdeal Cert.KernelIdeal.Gen

/-- Entry (r, q) of x · Wᵀ + b. -/
def linEntry {A : ℕ} (x : (⟨2, ![A, 64]⟩ : Shape).Idx → EReal) (W : (⟨2, ![64, 64]⟩ : Shape).Idx → EReal)
    (b : (⟨1, ![64]⟩ : Shape).Idx → EReal) (r : Fin A) (q : Fin 64) : EReal :=
  (∑ k : Fin 64, x (ix2 r k) * W (ix2 q k)) + b (ix1 q)

/-- Entry (r, q) of (raw + resid) / (deg + 1), the degree a column. -/
def combEntry {A : ℕ} (raw resid : (⟨2, ![A, 64]⟩ : Shape).Idx → EReal) (deg : (⟨2, ![A, 1]⟩ : Shape).Idx → EReal)
    (r : Fin A) (q : Fin 64) : EReal :=
  Ideal.div (raw (ix2 r q) + resid (ix2 r q)) (deg (ix2 r (0 : Fin 1)) + Ideal.ofBits .f32 0x3F800000#32)

/-- The whole array x · Wᵀ + b. -/
def linArr {A : ℕ} (x : (⟨2, ![A, 64]⟩ : Shape).Idx → EReal) (W : (⟨2, ![64, 64]⟩ : Shape).Idx → EReal)
    (b : (⟨1, ![64]⟩ : Shape).Idx → EReal) : (⟨2, ![A, 64]⟩ : Shape).Idx → EReal :=
  fun i => linEntry x W b ⟨(i 0).val, idx2_lt0 i⟩ ⟨(i 1).val, idx2_lt1 i⟩

/-- The whole array (raw + resid) / (deg + 1). -/
def combArr {A : ℕ} (raw resid : (⟨2, ![A, 64]⟩ : Shape).Idx → EReal) (deg : (⟨2, ![A, 1]⟩ : Shape).Idx → EReal) :
    (⟨2, ![A, 64]⟩ : Shape).Idx → EReal :=
  fun i => combEntry raw resid deg ⟨(i 0).val, idx2_lt0 i⟩ ⟨(i 1).val, idx2_lt1 i⟩

/-- A vector [B] cast to a row [1, B] reads, at (u, q), the vector's entry q. -/
theorem rowCast_apply {B : ℕ} {α : Type} (v : (⟨1, ![B]⟩ : Shape).Idx → α) (hc : (⟨1, ![B]⟩ : Shape).ShapeCasts ⟨2, ![1, B]⟩)
    (u : Fin 1) (q : Fin B) : shapeCast ⟨2, ![1, B]⟩ v hc (ix2 u q) = v (ix1 q) :=
  shapeCast_apply v hc _ _ (by
    have hu : u.val = 0 := by omega
    rw [Shape.rowMajor_val_two, Shape.rowMajor_val_one]
    show q.val = u.val * B + q.val
    rw [hu, Nat.zero_mul, Nat.zero_add])

/-- The 64 x 64 transpose read at (k, q) is the operand at (q, k). -/
theorem transpose64_apply {α : Type} (W : (⟨2, ![64, 64]⟩ : Shape).Idx → α)
    (h : (⟨2, ![64, 64]⟩ : Shape).Transposes [1, 0] ⟨2, ![64, 64]⟩) (k q : Fin 64) :
    transpose ⟨2, ![64, 64]⟩ [1, 0] W h (ix2 k q) = W (ix2 q k) :=
  transpose_apply [1, 0] W h (ix2 k q) (ix2 q k) (fun b => match b with
    | ⟨0, _⟩ => rfl
    | ⟨1, _⟩ => rfl)

/-! ## The matrix unit's dimension numbers: left index (row, contraction), right index (contraction, column) -/

theorem dot_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_l1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dot_r0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dot_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## The affine body -/

/-- The affine body's stored value as row operations: the product of the block with the transposed weights, the bias
    row added to every row. -/
theorem lin_pay_rows (x0 : Vec Ideal S10000x64 .f32) (x1 : Vec Ideal S64x64 .f32) (x2 : Vec Ideal S64 .f32) :
    k0_pay1 (F := Ideal) x0 x1 x2
      = addRow (matProd x0 (transpose S64x64 [1, 0] x1 transposes_S64x64_p1_0_S64x64)) (shapeCast S1x64 x2 shapeCasts_S64_S1x64) := by
  unfold k0_pay1
  refine (addf_broadcastTo_row broadcasts_S1x64_S10000x64 _ _).trans ?_
  exact congrArg (fun a => addRow a (shapeCast S1x64 x2 shapeCasts_S64_S1x64))
    (matmul_eq_matProd dot_S10000x64_S64x64_S10000x64_1_0_0_1_n_n rfl rfl dot_l0 dot_l1 dot_r0 dot_r1 none _ _)

/-- The affine body's stored value at (r, q). -/
theorem lin_pay (x0 : Vec Ideal S10000x64 .f32) (x1 : Vec Ideal S64x64 .f32) (x2 : Vec Ideal S64 .f32) (r : Fin 10000) (q : Fin 64) :
    k0_pay1 (F := Ideal) x0 x1 x2 (ix2 r q) = linEntry x0 x1 x2 r q := by
  rw [lin_pay_rows]
  show (∑ k : Fin 64, x0 (ix2 r k) * transpose S64x64 [1, 0] x1 transposes_S64x64_p1_0_S64x64 (ix2 k q))
      + shapeCast S1x64 x2 shapeCasts_S64_S1x64 (ix2 (0 : Fin 1) q) = _
  unfold linEntry
  rw [rowCast_apply]
  refine congrArg (· + x2 (ix1 q)) (Finset.sum_congr rfl fun k _ => ?_)
  rw [transpose64_apply]

/-- The affine body's stored value at (r, q) when the staged blocks hold row R of an array X, the weights W and the
    bias b: entry (R, q) of X · Wᵀ + b. -/
theorem lin_block_eq {A : ℕ} (x0 : Vec Ideal S10000x64 .f32) (x1 : Vec Ideal S64x64 .f32) (x2 : Vec Ideal S64 .f32)
    (X : (⟨2, ![A, 64]⟩ : Shape).Idx → EReal) (W : (⟨2, ![64, 64]⟩ : Shape).Idx → EReal) (b : (⟨1, ![64]⟩ : Shape).Idx → EReal)
    (r : Fin 10000) (q : Fin 64) (R : Fin A)
    (hx : ∀ k : Fin 64, x0 (ix2 r k) = X (ix2 R k)) (hw : ∀ k : Fin 64, x1 (ix2 q k) = W (ix2 q k)) (hb : x2 (ix1 q) = b (ix1 q)) :
    k0_pay1 (F := Ideal) x0 x1 x2 (ix2 r q) = linArr X W b (ix2 R q) := by
  rw [lin_pay]
  show (∑ k : Fin 64, x0 (ix2 r k) * x1 (ix2 q k)) + x2 (ix1 q) = (∑ k : Fin 64, X (ix2 R k) * W (ix2 q k)) + b (ix1 q)
  rw [hb]
  exact congrArg (· + b (ix1 q)) (Finset.sum_congr rfl fun k _ => by rw [hx k, hw k])

/-! ## The normalising body -/

/-- The normalising body's stored value at (r, q). -/
theorem comb_pay (x0 x1 : Vec Ideal S10000x64 .f32) (x2 : Vec Ideal S10000x1 .f32) (r : Fin 10000) (q : Fin 64) :
    k2_pay1 (F := Ideal) x0 x1 x2 (ix2 r q) = combEntry x0 x1 x2 r q := by
  unfold k2_pay1 combEntry
  show Ideal.div (shapeCast S10000x64 x0 shapeCasts_S10000x64_S10000x64 (ix2 r q) + shapeCast S10000x64 x1 shapeCasts_S10000x64_S10000x64 (ix2 r q))
      (broadcastTo S10000x64 (addf (shapeCast S10000x1 x2 shapeCasts_S10000x1_S10000x1) (broadcast S10000x1 (Scalar.ofBits (F := Ideal) .f32 0x3F800000#32))) broadcasts_S10000x1_S10000x64 (ix2 r q)) = _
  rw [Cert.Keepdims.broadcastTo_a1_ab_apply, shapeCast_self, shapeCast_self]
  show Ideal.div (x0 (ix2 r q) + x1 (ix2 r q)) (shapeCast S10000x1 x2 shapeCasts_S10000x1_S10000x1 (ix2 r (0 : Fin 1)) + Ideal.ofBits .f32 0x3F800000#32) = _
  rw [shapeCast_self]

/-- The normalising body's stored value at (r, q) when the staged blocks hold row R of the arrays: entry (R, q) of
    (raw + resid) / (deg + 1). -/
theorem comb_block_eq {A : ℕ} (x0 x1 : Vec Ideal S10000x64 .f32) (x2 : Vec Ideal S10000x1 .f32)
    (Y0 Y1 : (⟨2, ![A, 64]⟩ : Shape).Idx → EReal) (Y2 : (⟨2, ![A, 1]⟩ : Shape).Idx → EReal)
    (r : Fin 10000) (q : Fin 64) (R : Fin A)
    (h0 : x0 (ix2 r q) = Y0 (ix2 R q)) (h1 : x1 (ix2 r q) = Y1 (ix2 R q)) (h2 : x2 (ix2 r (0 : Fin 1)) = Y2 (ix2 R (0 : Fin 1))) :
    k2_pay1 (F := Ideal) x0 x1 x2 (ix2 r q) = combArr Y0 Y1 Y2 (ix2 R q) := by
  rw [comb_pay]
  show Ideal.div (x0 (ix2 r q) + x1 (ix2 r q)) (x2 (ix2 r (0 : Fin 1)) + Ideal.ofBits .f32 0x3F800000#32)
    = Ideal.div (Y0 (ix2 R q) + Y1 (ix2 R q)) (Y2 (ix2 R (0 : Fin 1)) + Ideal.ofBits .f32 0x3F800000#32)
  rw [h0, h1, h2]

end Cert.Blocks

end
-- ==== Proof.LibBcastInDim.lean ====
/-
  `stablehlo.broadcast_in_dim` of small shapes, read at an index given by coordinates.

  A vector laid along the second axis of a one-row matrix, a one-row matrix repeated down the rows, a vector laid down
  the first axis of a one-column matrix, and a one-column matrix repeated across the columns: each entry of the result
  is the operand's entry at the coordinates the operand has.
-/
import Idealize.ShloMosaic.Lib.Pipeline.Value
import Idealize.ShloMosaic.Lib.ValueIdx

namespace Cert.BcastInDim

open Idealize.ShloMosaic Idealize.ShloMosaic.ValueIdx

variable {α : Type}

/-- A scalar repeated over any shape: every entry is the scalar. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector [b] as the one row of a [1, b] matrix: entry (u, q) is the vector's entry q. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix [1, b] repeated down a rows: entry (k, q) is the row's entry q. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (k : Fin a) (q : Fin b) :
    broadcastInDim ⟨2, ![a, b]⟩ ![0, 1] h x (ix2 k q) = x (ix2 (0 : Fin 1) q) := by
  refine broadcastInDim_apply _ h x (ix2 k q) (ix2 (0 : Fin 1) q) fun ax => ?_
  match ax with
  | ⟨0, _⟩ => rfl
  | ⟨1, _⟩ =>
    show q.val = if b = 1 then 0 else q.val
    split
    · have := q.isLt; omega
    · rfl

/-- A vector [a] as the one column of an [a, 1] matrix: entry (k, u) is the vector's entry k. -/
theorem vec_col_apply {a : ℕ} (x : (⟨1, ![a]⟩ : Shape).Idx → α)
    (h : (⟨1, ![a]⟩ : Shape).BroadcastsInDim ⟨2, ![a, 1]⟩ (![0] : Fin 1 → Fin 2)) (k : Fin a) (u : Fin 1) :
    broadcastInDim ⟨2, ![a, 1]⟩ ![0] h x (ix2 k u) = x (ix1 k) := by
  refine broadcastInDim_apply _ h x (ix2 k u) (ix1 k) fun ax => ?_
  match ax with
  | ⟨0, _⟩ =>
    show k.val = if a = 1 then 0 else k.val
    split
    · have := k.isLt; omega
    · rfl

/-- A one-column matrix [a, 1] repeated across b columns: entry (k, q) is the column's entry k. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (k : Fin a) (q : Fin b) :
    broadcastInDim ⟨2, ![a, b]⟩ ![0, 1] h x (ix2 k q) = x (ix2 k (0 : Fin 1)) := by
  refine broadcastInDim_apply _ h x (ix2 k q) (ix2 k (0 : Fin 1)) fun ax => ?_
  match ax with
  | ⟨0, _⟩ =>
    show k.val = if a = 1 then 0 else k.val
    split
    · have := k.isLt; omega
    · rfl
  | ⟨1, _⟩ => rfl

end Cert.BcastInDim
-- ==== Proof.RefForms.lean ====
/-
  The host's spellings of the two row-wise steps, read entry by entry.

  An affine map x · Wᵀ + b is, on the host, a dot_general of x with the transposed weights plus the bias broadcast over the
  rows; its entry (r, q) is Σ k, x(r, k) · W(q, k) + b(q). The normalisation divides by the degree vector plus one,
  broadcast first to a column and then across the columns; its entry (r, q) is (raw(r, q) + resid(r, q)) / (deg(r) + 1),
  which is what the column-shaped degree gives too.
-/
import proofs.«152460_j42099269435817_2_alg».proof.Proof.Spec
import proofs.«152460_j42099269435817_2_alg».proof.Proof.Blocks
import proofs.«152460_j42099269435817_2_alg».proof.Proof.LibBcastInDim
import proofs.«152460_j42099269435817_2_alg».proof.Proof.Gen.ReferenceIdeal.Read

noncomputable section

namespace Cert.RefForms

open Idealize.ShloMosaic Idealize.ShloMosaic.ValueIdx
open Cert.ReferenceIdeal Cert.ReferenceIdeal.Facts₀ Cert.ReferenceIdeal.Facts

/-- The affine map over 50000 rows, in the host's spelling (a dot_general with the transposed weights, the bias
    broadcast over the rows), is the array of entries Σ k, x(r, k) · W(q, k) + b(q). -/
theorem linE_eq (x : FVec Ideal S50000x64 .f32) (W : FVec Ideal S64x64 .f32) (b : FVec Ideal S64 .f32) :
    Cert.Bridge.linE x W b = Cert.Blocks.linArr x W b := by
  unfold Cert.Bridge.linE
  rw [Cert.RowOps.addf_bcastRow]
  simp only [Host.dotGeneral]
  rw [Cert.RowOps.dotGeneral_eq_matProd dot_S50000x64_S64x64_S50000x64_1_0_0_1_n_n rfl rfl
    Cert.ReferenceIdeal.Read.lhs_main_v1_0 Cert.ReferenceIdeal.Read.lhs_main_v1_1
    Cert.ReferenceIdeal.Read.rhs_main_v1_0 Cert.ReferenceIdeal.Read.rhs_main_v1_1]
  funext i
  obtain ⟨r, q, rfl⟩ : ∃ (r : Fin 50000) (q : Fin 64), i = ix2 r q := ⟨i 0, i 1, eq_ix2 i⟩
  show (∑ k : Fin 64, x (ix2 r k) * transpose S64x64 [1, 0] W transposes_S64x64_S64x64_1_0 (ix2 k q))
      + broadcastInDim S1x64 ![1] bcast_S64_S1x64_1 b (ix2 (0 : Fin 1) q) = (∑ k : Fin 64, x (ix2 r k) * W (ix2 q k)) + b (ix1 q)
  rw [Cert.BcastInDim.vec_row_apply]
  exact congrArg (· + b (ix1 q)) (Finset.sum_congr rfl fun k _ => by rw [Cert.Blocks.transpose64_apply])

/-- The host's division of every row by that row's degree plus one is, with the degree vector cast to a column, the
    array of entries (raw(r, q) + resid(r, q)) / (deg(r) + 1). -/
theorem normE_eq (raw resid : FVec Ideal S50000x64 .f32) (deg : FVec Ideal S50000 .f32) (hc : S50000.ShapeCasts S50000x1) :
    Cert.Bridge.normE (addf raw resid) deg = Cert.Blocks.combArr raw resid (shapeCast S50000x1 deg hc) := by
  funext i
  obtain ⟨r, q, rfl⟩ : ∃ (r : Fin 50000) (q : Fin 64), i = ix2 r q := ⟨i 0, i 1, eq_ix2 i⟩
  unfold Cert.Bridge.normE
  show Ideal.div (raw (ix2 r q) + resid (ix2 r q))
      (broadcastInDim S50000x64 ![0, 1] bcast_S50000x1_S50000x64_0_1 (broadcastInDim S50000x1 ![0] bcast_S50000_S50000x1_0
        (addf deg (broadcastInDim S50000 ![] bcast_S_S50000 (constant S_ .f32 0x3F800000#32)))) (ix2 r q))
    = Ideal.div (raw (ix2 r q) + resid (ix2 r q)) (shapeCast S50000x1 deg hc (ix2 r (0 : Fin 1)) + Ideal.ofBits .f32 0x3F800000#32)
  rw [Cert.BcastInDim.col_mat_apply (a := 50000) (b := 64), Cert.BcastInDim.vec_col_apply (a := 50000), Cert.Keepdims.shapeCast_a_a1_apply (a := 50000)]
  show Ideal.div _ (deg (ix1 r) + broadcastInDim S50000 ![] bcast_S_S50000 (constant (F := Ideal) S_ .f32 0x3F800000#32) (ix1 r)) = _
  rw [Cert.BcastInDim.scalar_apply]
  rfl

/-- The affine map over 200000 rows, in the host's spelling (a dot_general with the transposed weights, the bias
    broadcast over the rows), is the array of entries Σ k, x(r, k) · W(q, k) + b(q). -/
theorem linU_eq (x : FVec Ideal S200000x64 .f32) (W : FVec Ideal S64x64 .f32) (b : FVec Ideal S64 .f32) :
    Cert.Bridge.linU x W b = Cert.Blocks.linArr x W b := by
  unfold Cert.Bridge.linU
  rw [Cert.RowOps.addf_bcastRow]
  simp only [Host.dotGeneral]
  rw [Cert.RowOps.dotGeneral_eq_matProd dot_S200000x64_S64x64_S200000x64_1_0_0_1_n_n rfl rfl
    Cert.ReferenceIdeal.Read.lhs_main_v6_0 Cert.ReferenceIdeal.Read.lhs_main_v6_1
    Cert.ReferenceIdeal.Read.rhs_main_v6_0 Cert.ReferenceIdeal.Read.rhs_main_v6_1]
  funext i
  obtain ⟨r, q, rfl⟩ : ∃ (r : Fin 200000) (q : Fin 64), i = ix2 r q := ⟨i 0, i 1, eq_ix2 i⟩
  show (∑ k : Fin 64, x (ix2 r k) * transpose S64x64 [1, 0] W transposes_S64x64_S64x64_1_0 (ix2 k q))
      + broadcastInDim S1x64 ![1] bcast_S64_S1x64_1 b (ix2 (0 : Fin 1) q) = (∑ k : Fin 64, x (ix2 r k) * W (ix2 q k)) + b (ix1 q)
  rw [Cert.BcastInDim.vec_row_apply]
  exact congrArg (· + b (ix1 q)) (Finset.sum_congr rfl fun k _ => by rw [Cert.Blocks.transpose64_apply])

/-- The host's division of every row by that row's degree plus one is, with the degree vector cast to a column, the
    array of entries (raw(r, q) + resid(r, q)) / (deg(r) + 1). -/
theorem normU_eq (raw resid : FVec Ideal S200000x64 .f32) (deg : FVec Ideal S200000 .f32) (hc : S200000.ShapeCasts S200000x1) :
    Cert.Bridge.normU (addf raw resid) deg = Cert.Blocks.combArr raw resid (shapeCast S200000x1 deg hc) := by
  funext i
  obtain ⟨r, q, rfl⟩ : ∃ (r : Fin 200000) (q : Fin 64), i = ix2 r q := ⟨i 0, i 1, eq_ix2 i⟩
  unfold Cert.Bridge.normU
  show Ideal.div (raw (ix2 r q) + resid (ix2 r q))
      (broadcastInDim S200000x64 ![0, 1] bcast_S200000x1_S200000x64_0_1 (broadcastInDim S200000x1 ![0] bcast_S200000_S200000x1_0
        (addf deg (broadcastInDim S200000 ![] bcast_S_S200000 (constant S_ .f32 0x3F800000#32)))) (ix2 r q))
    = Ideal.div (raw (ix2 r q) + resid (ix2 r q)) (shapeCast S200000x1 deg hc (ix2 r (0 : Fin 1)) + Ideal.ofBits .f32 0x3F800000#32)
  rw [Cert.BcastInDim.col_mat_apply (a := 200000) (b := 64), Cert.BcastInDim.vec_col_apply (a := 200000), Cert.Keepdims.shapeCast_a_a1_apply (a := 200000)]
  show Ideal.div _ (deg (ix1 r) + broadcastInDim S200000 ![] bcast_S_S200000 (constant (F := Ideal) S_ .f32 0x3F800000#32) (ix1 r)) = _
  rw [Cert.BcastInDim.scalar_apply]
  rfl

end Cert.RefForms

end
-- ==== Proof.Region0.lean ====
/-
  Region 0: the affine map over 50000 rows in 5 blocks of 10000 rows. Point t stages rows 10000·t … 10000·t + 9999 of
  the row array, the whole weights and the whole bias, and writes back the same rows of the result; the blocks tile the
  result, so after the region the result array is x · Wᵀ + b, entry by entry, of the arrays the region found.
-/
import proofs.«152460_j42099269435817_2_alg».proof.Proof.Gen.KernelIdeal.Frame
import proofs.«152460_j42099269435817_2_alg».proof.Proof.Blocks
import Idealize.ShloMosaic.Lib.Pipeline.Value

set_option maxRecDepth 16384

noncomputable section

namespace Cert.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: block t of the row arrays is block row t; the other operands are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block t of the region's function of the arrays it found. -/
theorem flushed_eq (c : Dev nD) (t : Fin cfg0.N) :
    (dat0 V c).flushed 3 t = ((cfg0.win 3).blk t).view.read (Elt Ideal) (Cert.Blocks.linArr (V c main_arg1) (V c main_arg6) (V c main_arg7)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S64) hz1]
  have ht : t.val < 5 := lt_of_lt_of_eq t.isLt N_0
  obtain ⟨e0, e1, e2, e3, e4, e5, e6⟩ := idx_facts t
  funext j
  obtain ⟨r, q, rfl⟩ : ∃ (r : Fin 10000) (q : Fin 64), j = ix2 r q := ⟨j 0, j 1, eq_ix2 j⟩
  obtain ⟨R, hR⟩ : ∃ R : Fin 50000, R.val = t.val * 10000 + r.val := ⟨⟨t.val * 10000 + r.val, by have := r.isLt; omega⟩, rfl⟩
  have he : ((cfg0.win 3).blk t).view.emb (ix2 r q) = (ix2 R q : S50000x64.Idx) := by
    funext a; apply Fin.ext
    match a with
    | ⟨0, _⟩ => show win0_3.index t (0 : Fin 2) * 10000 + 1 * r.val = R.val; omega
    | ⟨1, _⟩ => show win0_3.index t (1 : Fin 2) * 64 + 1 * q.val = q.val; omega
  show k0_pay1 (iblk0 V c 0 t) (iblk0 V c 1 t) (iblk0 V c 2 t) (ix2 r q) = Cert.Blocks.linArr (V c main_arg1) (V c main_arg6) (V c main_arg7) (((cfg0.win 3).blk t).view.emb (ix2 r q))
  rw [he]
  refine Cert.Blocks.lin_block_eq _ _ _ _ _ _ r q R (fun k => ?_) (fun k => ?_) ?_
  · show V c main_arg1 (((cfg0.win 0).blk t).view.emb (ix2 r k)) = _
    refine congrArg _ (funext fun a => Fin.ext ?_)
    match a with
    | ⟨0, _⟩ => show win0_0.index t (0 : Fin 2) * 10000 + 1 * r.val = R.val; omega
    | ⟨1, _⟩ => show win0_0.index t (1 : Fin 2) * 64 + 1 * k.val = k.val; omega
  · show V c main_arg6 (((cfg0.win 1).blk t).view.emb (ix2 q k)) = _
    refine congrArg _ (funext fun a => Fin.ext ?_)
    match a with
    | ⟨0, _⟩ => show win0_1.index t (0 : Fin 2) * 64 + 1 * q.val = q.val; omega
    | ⟨1, _⟩ => show win0_1.index t (1 : Fin 2) * 64 + 1 * k.val = k.val; omega
  · show V c main_arg7 (((cfg0.win 2).blk t).view.emb (ix1 q)) = _
    refine congrArg _ (funext fun a => Fin.ext ?_)
    match a with
    | ⟨0, _⟩ => show win0_2.index t (0 : Fin 1) * 64 + 1 * q.val = q.val; omega

/-- An index of the result array is in point t's block iff each coordinate is in the block's range on its axis. -/
theorem mem_blk (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v7).slice (win0_3.rect t)).set ↔ _
  rw [View.set_slice_whole, Rect.mem_set_unit]
  exact Iff.rfl

/-- Every block row is some point's. -/
theorem idx_onto : ∀ (p : Fin 5), ∃ t : Fin cfg0.N, t.val = p.val :=
  fun p => ⟨⟨p.val, lt_of_lt_of_eq p.isLt N_0.symm⟩, rfl⟩

/-- The blocks tile the result array: row i lies in the block of point i / 10000. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto ⟨(i 0).val / 10000, by omega⟩
  have ht' : t.val = (i 0).val / 10000 := ht
  obtain ⟨e0, e1, e2, e3, e4, e5, e6⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The result array after the region, whatever contents V the region is entered from. -/
theorem final (c : Dev nD) : (dat0 V c).arrAt 3 cfg0.N = Cert.Blocks.linArr (V c main_arg1) (V c main_arg6) (V c main_arg7) :=
  (dat0 V c).arrAt_eq_of_cover 3 _ (fun t _ => flushed_eq V c t) cover

end Cert.Region0

end
-- ==== Proof.Region1.lean ====
/-
  Region 1: the affine map over 200000 rows in 20 blocks of 10000 rows. Point t stages rows 10000·t … 10000·t + 9999 of
  the row array, the whole weights and the whole bias, and writes back the same rows of the result; the blocks tile the
  result, so after the region the result array is x · Wᵀ + b, entry by entry, of the arrays the region found.
-/
import proofs.«152460_j42099269435817_2_alg».proof.Proof.Gen.KernelIdeal.Frame
import proofs.«152460_j42099269435817_2_alg».proof.Proof.Blocks
import Idealize.ShloMosaic.Lib.Pipeline.Value

set_option maxRecDepth 16384

noncomputable section

namespace Cert.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: block t of the row arrays is block row t; the other operands are whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is block t of the region's function of the arrays it found. -/
theorem flushed_eq (c : Dev nD) (t : Fin cfg1.N) :
    (dat1 V c).flushed 3 t = ((cfg1.win 3).blk t).view.read (Elt Ideal) (Cert.Blocks.linArr (V c main_arg0) (V c main_arg4) (V c main_arg5)) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S64) hz1]
  have ht : t.val < 20 := lt_of_lt_of_eq t.isLt N_1
  obtain ⟨e0, e1, e2, e3, e4, e5, e6⟩ := idx_facts t
  funext j
  obtain ⟨r, q, rfl⟩ : ∃ (r : Fin 10000) (q : Fin 64), j = ix2 r q := ⟨j 0, j 1, eq_ix2 j⟩
  obtain ⟨R, hR⟩ : ∃ R : Fin 200000, R.val = t.val * 10000 + r.val := ⟨⟨t.val * 10000 + r.val, by have := r.isLt; omega⟩, rfl⟩
  have he : ((cfg1.win 3).blk t).view.emb (ix2 r q) = (ix2 R q : S200000x64.Idx) := by
    funext a; apply Fin.ext
    match a with
    | ⟨0, _⟩ => show win1_3.index t (0 : Fin 2) * 10000 + 1 * r.val = R.val; omega
    | ⟨1, _⟩ => show win1_3.index t (1 : Fin 2) * 64 + 1 * q.val = q.val; omega
  show k1_pay1 (iblk1 V c 0 t) (iblk1 V c 1 t) (iblk1 V c 2 t) (ix2 r q) = Cert.Blocks.linArr (V c main_arg0) (V c main_arg4) (V c main_arg5) (((cfg1.win 3).blk t).view.emb (ix2 r q))
  rw [he]
  refine Cert.Blocks.lin_block_eq _ _ _ _ _ _ r q R (fun k => ?_) (fun k => ?_) ?_
  · show V c main_arg0 (((cfg1.win 0).blk t).view.emb (ix2 r k)) = _
    refine congrArg _ (funext fun a => Fin.ext ?_)
    match a with
    | ⟨0, _⟩ => show win1_0.index t (0 : Fin 2) * 10000 + 1 * r.val = R.val; omega
    | ⟨1, _⟩ => show win1_0.index t (1 : Fin 2) * 64 + 1 * k.val = k.val; omega
  · show V c main_arg4 (((cfg1.win 1).blk t).view.emb (ix2 q k)) = _
    refine congrArg _ (funext fun a => Fin.ext ?_)
    match a with
    | ⟨0, _⟩ => show win1_1.index t (0 : Fin 2) * 64 + 1 * q.val = q.val; omega
    | ⟨1, _⟩ => show win1_1.index t (1 : Fin 2) * 64 + 1 * k.val = k.val; omega
  · show V c main_arg5 (((cfg1.win 2).blk t).view.emb (ix1 q)) = _
    refine congrArg _ (funext fun a => Fin.ext ?_)
    match a with
    | ⟨0, _⟩ => show win1_2.index t (0 : Fin 1) * 64 + 1 * q.val = q.val; omega

/-- An index of the result array is in point t's block iff each coordinate is in the block's range on its axis. -/
theorem mem_blk (t : Fin cfg1.N) (i : S200000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v8).slice (win1_3.rect t)).set ↔ _
  rw [View.set_slice_whole, Rect.mem_set_unit]
  exact Iff.rfl

/-- Every block row is some point's. -/
theorem idx_onto : ∀ (p : Fin 20), ∃ t : Fin cfg1.N, t.val = p.val :=
  fun p => ⟨⟨p.val, lt_of_lt_of_eq p.isLt N_1.symm⟩, rfl⟩

/-- The blocks tile the result array: row i lies in the block of point i / 10000. -/
theorem cover (i : S200000x64.Idx) : ∃ t : Fin cfg1.N, (cfg1.win 3).flush t = true ∧ i ∈ ((cfg1.win 3).blk t).view.set := by
  have hi0 : (i 0).val < 200000 := (i 0).isLt
  have hi1 : (i 1).val < 64 := (i 1).isLt
  obtain ⟨t, ht⟩ := idx_onto ⟨(i 0).val / 10000, by omega⟩
  have ht' : t.val = (i 0).val / 10000 := ht
  obtain ⟨e0, e1, e2, e3, e4, e5, e6⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The result array after the region, whatever contents V the region is entered from. -/
theorem final (c : Dev nD) : (dat1 V c).arrAt 3 cfg1.N = Cert.Blocks.linArr (V c main_arg0) (V c main_arg4) (V c main_arg5) :=
  (dat1 V c).arrAt_eq_of_cover 3 _ (fun t _ => flushed_eq V c t) cover

end Cert.Region1

end
-- ==== Proof.Region2.lean ====
/-
  Region 2: the normalising step over 200000 rows in 20 blocks of 10000 rows. Point t stages rows 10000·t … 10000·t + 9999
  of the aggregate, of the residual and of the degree column, and writes back the same rows of the result; the blocks
  tile the result, so after the region the result array is (raw + resid) / (deg + 1), entry by entry.
-/
import proofs.«152460_j42099269435817_2_alg».proof.Proof.Gen.KernelIdeal.Frame
import proofs.«152460_j42099269435817_2_alg».proof.Proof.Blocks
import Idealize.ShloMosaic.Lib.Pipeline.Value

set_option maxRecDepth 16384

noncomputable section

namespace Cert.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: block t of the row arrays is block row t; the other operands are whole. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is block t of the region's function of the arrays it found. -/
theorem flushed_eq (c : Dev nD) (t : Fin cfg2.N) :
    (dat2 V c).flushed 3 t = ((cfg2.win 3).blk t).view.read (Elt Ideal) (Cert.Blocks.combArr (V c main_v25) (V c main_v8) (V c main_v29)) := by
  show (cfg2.win 3).cut (grid2.coords t) ((dat2 V c).after 3 t) = _
  rw [after2_3]
  unfold out2_3
  rw [View.canon_unit_zero hz]
  simp only [View.ld_unit_zero (S := S10000x64) hz, View.ld_unit_zero (S := S10000x1) hz]
  have ht : t.val < 20 := lt_of_lt_of_eq t.isLt N_2
  obtain ⟨e0, e1, e2, e3, e4, e5, e6, e7⟩ := idx_facts t
  funext j
  obtain ⟨r, q, rfl⟩ : ∃ (r : Fin 10000) (q : Fin 64), j = ix2 r q := ⟨j 0, j 1, eq_ix2 j⟩
  obtain ⟨R, hR⟩ : ∃ R : Fin 200000, R.val = t.val * 10000 + r.val := ⟨⟨t.val * 10000 + r.val, by have := r.isLt; omega⟩, rfl⟩
  have he : ((cfg2.win 3).blk t).view.emb (ix2 r q) = (ix2 R q : S200000x64.Idx) := by
    funext a; apply Fin.ext
    match a with
    | ⟨0, _⟩ => show win2_3.index t (0 : Fin 2) * 10000 + 1 * r.val = R.val; omega
    | ⟨1, _⟩ => show win2_3.index t (1 : Fin 2) * 64 + 1 * q.val = q.val; omega
  show k2_pay1 (iblk2 V c 0 t) (iblk2 V c 1 t) (iblk2 V c 2 t) (ix2 r q) = Cert.Blocks.combArr (V c main_v25) (V c main_v8) (V c main_v29) (((cfg2.win 3).blk t).view.emb (ix2 r q))
  rw [he]
  refine Cert.Blocks.comb_block_eq _ _ _ _ _ _ r q R ?_ ?_ ?_
  · show V c main_v25 (((cfg2.win 0).blk t).view.emb (ix2 r q)) = _
    refine congrArg _ (funext fun a => Fin.ext ?_)
    match a with
    | ⟨0, _⟩ => show win2_0.index t (0 : Fin 2) * 10000 + 1 * r.val = R.val; omega
    | ⟨1, _⟩ => show win2_0.index t (1 : Fin 2) * 64 + 1 * q.val = q.val; omega
  · show V c main_v8 (((cfg2.win 1).blk t).view.emb (ix2 r q)) = _
    refine congrArg _ (funext fun a => Fin.ext ?_)
    match a with
    | ⟨0, _⟩ => show win2_1.index t (0 : Fin 2) * 10000 + 1 * r.val = R.val; omega
    | ⟨1, _⟩ => show win2_1.index t (1 : Fin 2) * 64 + 1 * q.val = q.val; omega
  · show V c main_v29 (((cfg2.win 2).blk t).view.emb (ix2 r (0 : Fin 1))) = _
    refine congrArg _ (funext fun a => Fin.ext ?_)
    match a with
    | ⟨0, _⟩ => show win2_2.index t (0 : Fin 2) * 10000 + 1 * r.val = R.val; omega
    | ⟨1, _⟩ => show win2_2.index t (1 : Fin 2) * 1 + 1 * 0 = 0; omega

/-- An index of the result array is in point t's block iff each coordinate is in the block's range on its axis. -/
theorem mem_blk (t : Fin cfg2.N) (i : S200000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v30).slice (win2_3.rect t)).set ↔ _
  rw [View.set_slice_whole, Rect.mem_set_unit]
  exact Iff.rfl

/-- Every block row is some point's. -/
theorem idx_onto : ∀ (p : Fin 20), ∃ t : Fin cfg2.N, t.val = p.val :=
  fun p => ⟨⟨p.val, lt_of_lt_of_eq p.isLt N_2.symm⟩, rfl⟩

/-- The blocks tile the result array: row i lies in the block of point i / 10000. -/
theorem cover (i : S200000x64.Idx) : ∃ t : Fin cfg2.N, (cfg2.win 3).flush t = true ∧ i ∈ ((cfg2.win 3).blk t).view.set := by
  have hi0 : (i 0).val < 200000 := (i 0).isLt
  have hi1 : (i 1).val < 64 := (i 1).isLt
  obtain ⟨t, ht⟩ := idx_onto ⟨(i 0).val / 10000, by omega⟩
  have ht' : t.val = (i 0).val / 10000 := ht
  obtain ⟨e0, e1, e2, e3, e4, e5, e6, e7⟩ := idx_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The result array after the region, whatever contents V the region is entered from. -/
theorem final (c : Dev nD) : (dat2 V c).arrAt 3 cfg2.N = Cert.Blocks.combArr (V c main_v25) (V c main_v8) (V c main_v29) :=
  (dat2 V c).arrAt_eq_of_cover 3 _ (fun t _ => flushed_eq V c t) cover

end Cert.Region2

end
-- ==== Proof.Region3.lean ====
/-
  Region 3: the normalising step over 50000 rows in 5 blocks of 10000 rows. Point t stages rows 10000·t … 10000·t + 9999
  of the aggregate, of the residual and of the degree column, and writes back the same rows of the result; the blocks
  tile the result, so after the region the result array is (raw + resid) / (deg + 1), entry by entry.
-/
import proofs.«152460_j42099269435817_2_alg».proof.Proof.Gen.KernelIdeal.Frame
import proofs.«152460_j42099269435817_2_alg».proof.Proof.Blocks
import Idealize.ShloMosaic.Lib.Pipeline.Value

set_option maxRecDepth 16384

noncomputable section

namespace Cert.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: block t of the row arrays is block row t; the other operands are whole. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back is block t of the region's function of the arrays it found. -/
theorem flushed_eq (c : Dev nD) (t : Fin cfg3.N) :
    (dat3 V c).flushed 3 t = ((cfg3.win 3).blk t).view.read (Elt Ideal) (Cert.Blocks.combArr (V c main_v28) (V c main_v7) (V c main_v31)) := by
  show (cfg3.win 3).cut (grid3.coords t) ((dat3 V c).after 3 t) = _
  rw [after3_3]
  unfold out3_3
  rw [View.canon_unit_zero hz]
  simp only [View.ld_unit_zero (S := S10000x64) hz, View.ld_unit_zero (S := S10000x1) hz]
  have ht : t.val < 5 := lt_of_lt_of_eq t.isLt N_3
  obtain ⟨e0, e1, e2, e3, e4, e5, e6, e7⟩ := idx_facts t
  funext j
  obtain ⟨r, q, rfl⟩ : ∃ (r : Fin 10000) (q : Fin 64), j = ix2 r q := ⟨j 0, j 1, eq_ix2 j⟩
  obtain ⟨R, hR⟩ : ∃ R : Fin 50000, R.val = t.val * 10000 + r.val := ⟨⟨t.val * 10000 + r.val, by have := r.isLt; omega⟩, rfl⟩
  have he : ((cfg3.win 3).blk t).view.emb (ix2 r q) = (ix2 R q : S50000x64.Idx) := by
    funext a; apply Fin.ext
    match a with
    | ⟨0, _⟩ => show win3_3.index t (0 : Fin 2) * 10000 + 1 * r.val = R.val; omega
    | ⟨1, _⟩ => show win3_3.index t (1 : Fin 2) * 64 + 1 * q.val = q.val; omega
  show k3_pay1 (iblk3 V c 0 t) (iblk3 V c 1 t) (iblk3 V c 2 t) (ix2 r q) = Cert.Blocks.combArr (V c main_v28) (V c main_v7) (V c main_v31) (((cfg3.win 3).blk t).view.emb (ix2 r q))
  rw [he]
  refine Cert.Blocks.comb_block_eq _ _ _ _ _ _ r q R ?_ ?_ ?_
  · show V c main_v28 (((cfg3.win 0).blk t).view.emb (ix2 r q)) = _
    refine congrArg _ (funext fun a => Fin.ext ?_)
    match a with
    | ⟨0, _⟩ => show win3_0.index t (0 : Fin 2) * 10000 + 1 * r.val = R.val; omega
    | ⟨1, _⟩ => show win3_0.index t (1 : Fin 2) * 64 + 1 * q.val = q.val; omega
  · show V c main_v7 (((cfg3.win 1).blk t).view.emb (ix2 r q)) = _
    refine congrArg _ (funext fun a => Fin.ext ?_)
    match a with
    | ⟨0, _⟩ => show win3_1.index t (0 : Fin 2) * 10000 + 1 * r.val = R.val; omega
    | ⟨1, _⟩ => show win3_1.index t (1 : Fin 2) * 64 + 1 * q.val = q.val; omega
  · show V c main_v31 (((cfg3.win 2).blk t).view.emb (ix2 r (0 : Fin 1))) = _
    refine congrArg _ (funext fun a => Fin.ext ?_)
    match a with
    | ⟨0, _⟩ => show win3_2.index t (0 : Fin 2) * 10000 + 1 * r.val = R.val; omega
    | ⟨1, _⟩ => show win3_2.index t (1 : Fin 2) * 1 + 1 * 0 = 0; omega

/-- An index of the result array is in point t's block iff each coordinate is in the block's range on its axis. -/
theorem mem_blk (t : Fin cfg3.N) (i : S50000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v32).slice (win3_3.rect t)).set ↔ _
  rw [View.set_slice_whole, Rect.mem_set_unit]
  exact Iff.rfl

/-- Every block row is some point's. -/
theorem idx_onto : ∀ (p : Fin 5), ∃ t : Fin cfg3.N, t.val = p.val :=
  fun p => ⟨⟨p.val, lt_of_lt_of_eq p.isLt N_3.symm⟩, rfl⟩

/-- The blocks tile the result array: row i lies in the block of point i / 10000. -/
theorem cover (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto ⟨(i 0).val / 10000, by omega⟩
  have ht' : t.val = (i 0).val / 10000 := ht
  obtain ⟨e0, e1, e2, e3, e4, e5, e6, e7⟩ := idx_facts t
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- The result array after the region, whatever contents V the region is entered from. -/
theorem final (c : Dev nD) : (dat3 V c).arrAt 3 cfg3.N = Cert.Blocks.combArr (V c main_v28) (V c main_v7) (V c main_v31) :=
  (dat3 V c).arrAt_eq_of_cover 3 _ (fun t _ => flushed_eq V c t) cover

end Cert.Region3

end
-- ==== Proof.Region4.lean ====
/-
  Region 4: the affine map over 50000 rows in 5 blocks of 10000 rows. Point t stages rows 10000·t … 10000·t + 9999 of
  the row array, the whole weights and the whole bias, and writes back the same rows of the result; the blocks tile the
  result, so after the region the result array is x · Wᵀ + b, entry by entry, of the arrays the region found.
-/
import proofs.«152460_j42099269435817_2_alg».proof.Proof.Gen.KernelIdeal.Frame
import proofs.«152460_j42099269435817_2_alg».proof.Proof.Blocks
import Idealize.ShloMosaic.Lib.Pipeline.Value

set_option maxRecDepth 16384

noncomputable section

namespace Cert.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: block t of the row arrays is block row t; the other operands are whole. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- What point t writes back is block t of the region's function of the arrays it found. -/
theorem flushed_eq (c : Dev nD) (t : Fin cfg4.N) :
    (dat4 V c).flushed 3 t = ((cfg4.win 3).blk t).view.read (Elt Ideal) (Cert.Blocks.linArr (V c main_v32) (V c main_arg10) (V c main_arg11)) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x64) hz, View.ld_unit_zero (S := S64) hz1]
  have ht : t.val < 5 := lt_of_lt_of_eq t.isLt N_4
  obtain ⟨e0, e1, e2, e3, e4, e5, e6⟩ := idx_facts t
  funext j
  obtain ⟨r, q, rfl⟩ : ∃ (r : Fin 10000) (q : Fin 64), j = ix2 r q := ⟨j 0, j 1, eq_ix2 j⟩
  obtain ⟨R, hR⟩ : ∃ R : Fin 50000, R.val = t.val * 10000 + r.val := ⟨⟨t.val * 10000 + r.val, by have := r.isLt; omega⟩, rfl⟩
  have he : ((cfg4.win 3).blk t).view.emb (ix2 r q) = (ix2 R q : S50000x64.Idx) := by
    funext a; apply Fin.ext
    match a with
    | ⟨0, _⟩ => show win4_3.index t (0 : Fin 2) * 10000 + 1 * r.val = R.val; omega
    | ⟨1, _⟩ => show win4_3.index t (1 : Fin 2) * 64 + 1 * q.val = q.val; omega
  show k4_pay1 (iblk4 V c 0 t) (iblk4 V c 1 t) (iblk4 V c 2 t) (ix2 r q) = Cert.Blocks.linArr (V c main_v32) (V c main_arg10) (V c main_arg11) (((cfg4.win 3).blk t).view.emb (ix2 r q))
  rw [he]
  refine Cert.Blocks.lin_block_eq _ _ _ _ _ _ r q R (fun k => ?_) (fun k => ?_) ?_
  · rw [shapeCast_self]
    show V c main_v32 (((cfg4.win 0).blk t).view.emb (ix2 r k)) = _
    refine congrArg _ (funext fun a => Fin.ext ?_)
    match a with
    | ⟨0, _⟩ => show win4_0.index t (0 : Fin 2) * 10000 + 1 * r.val = R.val; omega
    | ⟨1, _⟩ => show win4_0.index t (1 : Fin 2) * 64 + 1 * k.val = k.val; omega
  · show V c main_arg10 (((cfg4.win 1).blk t).view.emb (ix2 q k)) = _
    refine congrArg _ (funext fun a => Fin.ext ?_)
    match a with
    | ⟨0, _⟩ => show win4_1.index t (0 : Fin 2) * 64 + 1 * q.val = q.val; omega
    | ⟨1, _⟩ => show win4_1.index t (1 : Fin 2) * 64 + 1 * k.val = k.val; omega
  · show V c main_arg11 (((cfg4.win 2).blk t).view.emb (ix1 q)) = _
    refine congrArg _ (funext fun a => Fin.ext ?_)
    match a with
    | ⟨0, _⟩ => show win4_2.index t (0 : Fin 1) * 64 + 1 * q.val = q.val; omega

/-- An index of the result array is in point t's block iff each coordinate is in the block's range on its axis. -/
theorem mem_blk (t : Fin cfg4.N) (i : S50000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v33).slice (win4_3.rect t)).set ↔ _
  rw [View.set_slice_whole, Rect.mem_set_unit]
  exact Iff.rfl

/-- Every block row is some point's. -/
theorem idx_onto : ∀ (p : Fin 5), ∃ t : Fin cfg4.N, t.val = p.val :=
  fun p => ⟨⟨p.val, lt_of_lt_of_eq p.isLt N_4.symm⟩, rfl⟩

/-- The blocks tile the result array: row i lies in the block of point i / 10000. -/
theorem cover (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ := idx_onto ⟨(i 0).val / 10000, by omega⟩
  have ht' : t.val = (i 0).val / 10000 := ht
  obtain ⟨e0, e1, e2, e3, e4, e5, e6⟩ := idx_facts t
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- The result array after the region, whatever contents V the region is entered from. -/
theorem final (c : Dev nD) : (dat4 V c).arrAt 3 cfg4.N = Cert.Blocks.linArr (V c main_v32) (V c main_arg10) (V c main_arg11) :=
  (dat4 V c).arrAt_eq_of_cover 3 _ (fun t _ => flushed_eq V c t) cover

end Cert.Region4

end
-- ==== Proof.Region5.lean ====
/-
  Region 5: the affine map over 200000 rows in 20 blocks of 10000 rows. Point t stages rows 10000·t … 10000·t + 9999 of
  the row array, the whole weights and the whole bias, and writes back the same rows of the result; the blocks tile the
  result, so after the region the result array is x · Wᵀ + b, entry by entry, of the arrays the region found.
-/
import proofs.«152460_j42099269435817_2_alg».proof.Proof.Gen.KernelIdeal.Frame
import proofs.«152460_j42099269435817_2_alg».proof.Proof.Blocks
import Idealize.ShloMosaic.Lib.Pipeline.Value

set_option maxRecDepth 16384

noncomputable section

namespace Cert.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: block t of the row arrays is block row t; the other operands are whole. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- What point t writes back is block t of the region's function of the arrays it found. -/
theorem flushed_eq (c : Dev nD) (t : Fin cfg5.N) :
    (dat5 V c).flushed 3 t = ((cfg5.win 3).blk t).view.read (Elt Ideal) (Cert.Blocks.linArr (V c main_v30) (V c main_arg8) (V c main_arg9)) := by
  show (cfg5.win 3).cut (grid5.coords t) ((dat5 V c).after 3 t) = _
  rw [after5_3]
  unfold out5_3
  rw [View.canon_unit_zero hz]
  simp only [View.ld_unit_zero (S := S10000x64) hz, View.ld_unit_zero (S := S64x64) hz, View.ld_unit_zero (S := S64) hz1]
  have ht : t.val < 20 := lt_of_lt_of_eq t.isLt N_5
  obtain ⟨e0, e1, e2, e3, e4, e5, e6⟩ := idx_facts t
  funext j
  obtain ⟨r, q, rfl⟩ : ∃ (r : Fin 10000) (q : Fin 64), j = ix2 r q := ⟨j 0, j 1, eq_ix2 j⟩
  obtain ⟨R, hR⟩ : ∃ R : Fin 200000, R.val = t.val * 10000 + r.val := ⟨⟨t.val * 10000 + r.val, by have := r.isLt; omega⟩, rfl⟩
  have he : ((cfg5.win 3).blk t).view.emb (ix2 r q) = (ix2 R q : S200000x64.Idx) := by
    funext a; apply Fin.ext
    match a with
    | ⟨0, _⟩ => show win5_3.index t (0 : Fin 2) * 10000 + 1 * r.val = R.val; omega
    | ⟨1, _⟩ => show win5_3.index t (1 : Fin 2) * 64 + 1 * q.val = q.val; omega
  show k5_pay1 (iblk5 V c 0 t) (iblk5 V c 1 t) (iblk5 V c 2 t) (ix2 r q) = Cert.Blocks.linArr (V c main_v30) (V c main_arg8) (V c main_arg9) (((cfg5.win 3).blk t).view.emb (ix2 r q))
  rw [he]
  refine Cert.Blocks.lin_block_eq _ _ _ _ _ _ r q R (fun k => ?_) (fun k => ?_) ?_
  · rw [shapeCast_self]
    show V c main_v30 (((cfg5.win 0).blk t).view.emb (ix2 r k)) = _
    refine congrArg _ (funext fun a => Fin.ext ?_)
    match a with
    | ⟨0, _⟩ => show win5_0.index t (0 : Fin 2) * 10000 + 1 * r.val = R.val; omega
    | ⟨1, _⟩ => show win5_0.index t (1 : Fin 2) * 64 + 1 * k.val = k.val; omega
  · show V c main_arg8 (((cfg5.win 1).blk t).view.emb (ix2 q k)) = _
    refine congrArg _ (funext fun a => Fin.ext ?_)
    match a with
    | ⟨0, _⟩ => show win5_1.index t (0 : Fin 2) * 64 + 1 * q.val = q.val; omega
    | ⟨1, _⟩ => show win5_1.index t (1 : Fin 2) * 64 + 1 * k.val = k.val; omega
  · show V c main_arg9 (((cfg5.win 2).blk t).view.emb (ix1 q)) = _
    refine congrArg _ (funext fun a => Fin.ext ?_)
    match a with
    | ⟨0, _⟩ => show win5_2.index t (0 : Fin 1) * 64 + 1 * q.val = q.val; omega

/-- An index of the result array is in point t's block iff each coordinate is in the block's range on its axis. -/
theorem mem_blk (t : Fin cfg5.N) (i : S200000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v34).slice (win5_3.rect t)).set ↔ _
  rw [View.set_slice_whole, Rect.mem_set_unit]
  exact Iff.rfl

/-- Every block row is some point's. -/
theorem idx_onto : ∀ (p : Fin 20), ∃ t : Fin cfg5.N, t.val = p.val :=
  fun p => ⟨⟨p.val, lt_of_lt_of_eq p.isLt N_5.symm⟩, rfl⟩

/-- The blocks tile the result array: row i lies in the block of point i / 10000. -/
theorem cover (i : S200000x64.Idx) : ∃ t : Fin cfg5.N, (cfg5.win 3).flush t = true ∧ i ∈ ((cfg5.win 3).blk t).view.set := by
  have hi0 : (i 0).val < 200000 := (i 0).isLt
  have hi1 : (i 1).val < 64 := (i 1).isLt
  obtain ⟨t, ht⟩ := idx_onto ⟨(i 0).val / 10000, by omega⟩
  have ht' : t.val = (i 0).val / 10000 := ht
  obtain ⟨e0, e1, e2, e3, e4, e5, e6⟩ := idx_facts t
  refine ⟨t, flush5_3 t, ?_⟩
  rw [mem_blk]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 64 ≤ (i 1).val ∧ (i 1).val < win5_3.index t (1 : Fin 2) * 64 + 64; omega

/-- The result array after the region, whatever contents V the region is entered from. -/
theorem final (c : Dev nD) : (dat5 V c).arrAt 3 cfg5.N = Cert.Blocks.linArr (V c main_v30) (V c main_arg8) (V c main_arg9) :=
  (dat5 V c).arrAt_eq_of_cover 3 _ (fun t _ => flushed_eq V c t) cover

end Cert.Region5

end
-- ==== Proof.Region6.lean ====
/-
  Region 6: the normalising step over 200000 rows in 20 blocks of 10000 rows. Point t stages rows 10000·t … 10000·t + 9999
  of the aggregate, of the residual and of the degree column, and writes back the same rows of the result; the blocks
  tile the result, so after the region the result array is (raw + resid) / (deg + 1), entry by entry.
-/
import proofs.«152460_j42099269435817_2_alg».proof.Proof.Gen.KernelIdeal.Frame
import proofs.«152460_j42099269435817_2_alg».proof.Proof.Blocks
import Idealize.ShloMosaic.Lib.Pipeline.Value

set_option maxRecDepth 16384

noncomputable section

namespace Cert.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: block t of the row arrays is block row t; the other operands are whole. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- What point t writes back is block t of the region's function of the arrays it found. -/
theorem flushed_eq (c : Dev nD) (t : Fin cfg6.N) :
    (dat6 V c).flushed 3 t = ((cfg6.win 3).blk t).view.read (Elt Ideal) (Cert.Blocks.combArr (V c main_v51) (V c main_v34) (V c main_v55)) := by
  show (cfg6.win 3).cut (grid6.coords t) ((dat6 V c).after 3 t) = _
  rw [after6_3]
  unfold out6_3
  rw [View.canon_unit_zero hz]
  simp only [View.ld_unit_zero (S := S10000x64) hz, View.ld_unit_zero (S := S10000x1) hz]
  have ht : t.val < 20 := lt_of_lt_of_eq t.isLt N_6
  obtain ⟨e0, e1, e2, e3, e4, e5, e6, e7⟩ := idx_facts t
  funext j
  obtain ⟨r, q, rfl⟩ : ∃ (r : Fin 10000) (q : Fin 64), j = ix2 r q := ⟨j 0, j 1, eq_ix2 j⟩
  obtain ⟨R, hR⟩ : ∃ R : Fin 200000, R.val = t.val * 10000 + r.val := ⟨⟨t.val * 10000 + r.val, by have := r.isLt; omega⟩, rfl⟩
  have he : ((cfg6.win 3).blk t).view.emb (ix2 r q) = (ix2 R q : S200000x64.Idx) := by
    funext a; apply Fin.ext
    match a with
    | ⟨0, _⟩ => show win6_3.index t (0 : Fin 2) * 10000 + 1 * r.val = R.val; omega
    | ⟨1, _⟩ => show win6_3.index t (1 : Fin 2) * 64 + 1 * q.val = q.val; omega
  show k6_pay1 (iblk6 V c 0 t) (iblk6 V c 1 t) (iblk6 V c 2 t) (ix2 r q) = Cert.Blocks.combArr (V c main_v51) (V c main_v34) (V c main_v55) (((cfg6.win 3).blk t).view.emb (ix2 r q))
  rw [he]
  refine Cert.Blocks.comb_block_eq _ _ _ _ _ _ r q R ?_ ?_ ?_
  · show V c main_v51 (((cfg6.win 0).blk t).view.emb (ix2 r q)) = _
    refine congrArg _ (funext fun a => Fin.ext ?_)
    match a with
    | ⟨0, _⟩ => show win6_0.index t (0 : Fin 2) * 10000 + 1 * r.val = R.val; omega
    | ⟨1, _⟩ => show win6_0.index t (1 : Fin 2) * 64 + 1 * q.val = q.val; omega
  · show V c main_v34 (((cfg6.win 1).blk t).view.emb (ix2 r q)) = _
    refine congrArg _ (funext fun a => Fin.ext ?_)
    match a with
    | ⟨0, _⟩ => show win6_1.index t (0 : Fin 2) * 10000 + 1 * r.val = R.val; omega
    | ⟨1, _⟩ => show win6_1.index t (1 : Fin 2) * 64 + 1 * q.val = q.val; omega
  · show V c main_v55 (((cfg6.win 2).blk t).view.emb (ix2 r (0 : Fin 1))) = _
    refine congrArg _ (funext fun a => Fin.ext ?_)
    match a with
    | ⟨0, _⟩ => show win6_2.index t (0 : Fin 2) * 10000 + 1 * r.val = R.val; omega
    | ⟨1, _⟩ => show win6_2.index t (1 : Fin 2) * 1 + 1 * 0 = 0; omega

/-- An index of the result array is in point t's block iff each coordinate is in the block's range on its axis. -/
theorem mem_blk (t : Fin cfg6.N) (i : S200000x64.Idx) :
    i ∈ ((cfg6.win 3).blk t).view.set ↔ ∀ a : Fin 2, win6_3.index t a * S10000x64.size a ≤ (i a).val ∧ (i a).val < win6_3.index t a * S10000x64.size a + S10000x64.size a := by
  show i ∈ ((View.whole main_v56).slice (win6_3.rect t)).set ↔ _
  rw [View.set_slice_whole, Rect.mem_set_unit]
  exact Iff.rfl

/-- Every block row is some point's. -/
theorem idx_onto : ∀ (p : Fin 20), ∃ t : Fin cfg6.N, t.val = p.val :=
  fun p => ⟨⟨p.val, lt_of_lt_of_eq p.isLt N_6.symm⟩, rfl⟩

/-- The blocks tile the result array: row i lies in the block of point i / 10000. -/
theorem cover (i : S200000x64.Idx) : ∃ t : Fin cfg6.N, (cfg6.win 3).flush t = true ∧ i ∈ ((cfg6.win 3).blk t).view.set := by
  have hi0 : (i 0).val < 200000 := (i 0).isLt
  have hi1 : (i 1).val < 64 := (i 1).isLt
  obtain ⟨t, ht⟩ := idx_onto ⟨(i 0).val / 10000, by omega⟩
  have ht' : t.val = (i 0).val / 10000 := ht
  obtain ⟨e0, e1, e2, e3, e4, e5, e6, e7⟩ := idx_facts t
  refine ⟨t, flush6_3 t, ?_⟩
  rw [mem_blk]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 64 ≤ (i 1).val ∧ (i 1).val < win6_3.index t (1 : Fin 2) * 64 + 64; omega

/-- The result array after the region, whatever contents V the region is entered from. -/
theorem final (c : Dev nD) : (dat6 V c).arrAt 3 cfg6.N = Cert.Blocks.combArr (V c main_v51) (V c main_v34) (V c main_v55) :=
  (dat6 V c).arrAt_eq_of_cover 3 _ (fun t _ => flushed_eq V c t) cover

end Cert.Region6

end
-- ==== Proof.Region7.lean ====
/-
  Region 7: the normalising step over 50000 rows in 5 blocks of 10000 rows. Point t stages rows 10000·t … 10000·t + 9999
  of the aggregate, of the residual and of the degree column, and writes back the same rows of the result; the blocks
  tile the result, so after the region the result array is (raw + resid) / (deg + 1), entry by entry.
-/
import proofs.«152460_j42099269435817_2_alg».proof.Proof.Gen.KernelIdeal.Frame
import proofs.«152460_j42099269435817_2_alg».proof.Proof.Blocks
import Idealize.ShloMosaic.Lib.Pipeline.Value

set_option maxRecDepth 16384

noncomputable section

namespace Cert.Region7

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: block t of the row arrays is block row t; the other operands are whole. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- What point t writes back is block t of the region's function of the arrays it found. -/
theorem flushed_eq (c : Dev nD) (t : Fin cfg7.N) :
    (dat7 V c).flushed 3 t = ((cfg7.win 3).blk t).view.read (Elt Ideal) (Cert.Blocks.combArr (V c main_v54) (V c main_v33) (V c main_v57)) := by
  show (cfg7.win 3).cut (grid7.coords t) ((dat7 V c).after 3 t) = _
  rw [after7_3]
  unfold out7_3
  rw [View.canon_unit_zero hz]
  simp only [View.ld_unit_zero (S := S10000x64) hz, View.ld_unit_zero (S := S10000x1) hz]
  have ht : t.val < 5 := lt_of_lt_of_eq t.isLt N_7
  obtain ⟨e0, e1, e2, e3, e4, e5, e6, e7⟩ := idx_facts t
  funext j
  obtain ⟨r, q, rfl⟩ : ∃ (r : Fin 10000) (q : Fin 64), j = ix2 r q := ⟨j 0, j 1, eq_ix2 j⟩
  obtain ⟨R, hR⟩ : ∃ R : Fin 50000, R.val = t.val * 10000 + r.val := ⟨⟨t.val * 10000 + r.val, by have := r.isLt; omega⟩, rfl⟩
  have he : ((cfg7.win 3).blk t).view.emb (ix2 r q) = (ix2 R q : S50000x64.Idx) := by
    funext a; apply Fin.ext
    match a with
    | ⟨0, _⟩ => show win7_3.index t (0 : Fin 2) * 10000 + 1 * r.val = R.val; omega
    | ⟨1, _⟩ => show win7_3.index t (1 : Fin 2) * 64 + 1 * q.val = q.val; omega
  show k7_pay1 (iblk7 V c 0 t) (iblk7 V c 1 t) (iblk7 V c 2 t) (ix2 r q) = Cert.Blocks.combArr (V c main_v54) (V c main_v33) (V c main_v57) (((cfg7.win 3).blk t).view.emb (ix2 r q))
  rw [he]
  refine Cert.Blocks.comb_block_eq _ _ _ _ _ _ r q R ?_ ?_ ?_
  · show V c main_v54 (((cfg7.win 0).blk t).view.emb (ix2 r q)) = _
    refine congrArg _ (funext fun a => Fin.ext ?_)
    match a with
    | ⟨0, _⟩ => show win7_0.index t (0 : Fin 2) * 10000 + 1 * r.val = R.val; omega
    | ⟨1, _⟩ => show win7_0.index t (1 : Fin 2) * 64 + 1 * q.val = q.val; omega
  · show V c main_v33 (((cfg7.win 1).blk t).view.emb (ix2 r q)) = _
    refine congrArg _ (funext fun a => Fin.ext ?_)
    match a with
    | ⟨0, _⟩ => show win7_1.index t (0 : Fin 2) * 10000 + 1 * r.val = R.val; omega
    | ⟨1, _⟩ => show win7_1.index t (1 : Fin 2) * 64 + 1 * q.val = q.val; omega
  · show V c main_v57 (((cfg7.win 2).blk t).view.emb (ix2 r (0 : Fin 1))) = _
    refine congrArg _ (funext fun a => Fin.ext ?_)
    match a with
    | ⟨0, _⟩ => show win7_2.index t (0 : Fin 2) * 10000 + 1 * r.val = R.val; omega
    | ⟨1, _⟩ => show win7_2.index t (1 : Fin 2) * 1 + 1 * 0 = 0; omega

/-- An index of the result array is in point t's block iff each coordinate is in the block's range on its axis. -/
theorem mem_blk (t : Fin cfg7.N) (i : S50000x64.Idx) :
    i ∈ ((cfg7.win 3).blk t).view.set ↔ ∀ a : Fin 2, win7_3.index t a * S10000x64.size a ≤ (i a).val ∧ (i a).val < win7_3.index t a * S10000x64.size a + S10000x64.size a := by
  show i ∈ ((View.whole main_v58).slice (win7_3.rect t)).set ↔ _
  rw [View.set_slice_whole, Rect.mem_set_unit]
  exact Iff.rfl

/-- Every block row is some point's. -/
theorem idx_onto : ∀ (p : Fin 5), ∃ t : Fin cfg7.N, t.val = p.val :=
  fun p => ⟨⟨p.val, lt_of_lt_of_eq p.isLt N_7.symm⟩, rfl⟩

/-- The blocks tile the result array: row i lies in the block of point i / 10000. -/
theorem cover (i : S50000x64.Idx) : ∃ t : Fin cfg7.N, (cfg7.win 3).flush t = true ∧ i ∈ ((cfg7.win 3).blk t).view.set := by
  have hi0 : (i 0).val < 50000 := (i 0).isLt
  have hi1 : (i 1).val < 64 := (i 1).isLt
  obtain ⟨t, ht⟩ := idx_onto ⟨(i 0).val / 10000, by omega⟩
  have ht' : t.val = (i 0).val / 10000 := ht
  obtain ⟨e0, e1, e2, e3, e4, e5, e6, e7⟩ := idx_facts t
  refine ⟨t, flush7_3 t, ?_⟩
  rw [mem_blk]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 64 ≤ (i 1).val ∧ (i 1).val < win7_3.index t (1 : Fin 2) * 64 + 64; omega

/-- The result array after the region, whatever contents V the region is entered from. -/
theorem final (c : Dev nD) : (dat7 V c).arrAt 3 cfg7.N = Cert.Blocks.combArr (V c main_v54) (V c main_v33) (V c main_v57) :=
  (dat7 V c).arrAt_eq_of_cover 3 _ (fun t _ => flushed_eq V c t) cover

end Cert.Region7

end
-- ==== Proof.Chain.lean ====
/-
  The buffers at every segment boundary of the idealized kernel's @main, read forward from the launch memory.

  @main alternates host stretches and regions. A host stretch leaves at each buffer it writes its operation's value of
  the buffers before it, and every other buffer as it was; a region leaves at its result array the region's function of
  the arrays it found, and every other buffer as it was. Walking the thirteen boundaries:
    1   the two degree vectors (edges counted at each event, at each user);
    2-3 layer one's affine maps of the event and user features;
    4   the two aggregates (gather the mapped rows along the edges, add them up at the other end) and the user degrees
        as a column;
    5-7 layer one's normalised user and event features (aggregate plus residual, over degree plus one);
    8-9 layer two's affine maps; 10 its aggregates; 11-13 its normalised features: the two results.
  Each boundary's facts are the values of the buffers later segments still read.
-/
import proofs.«152460_j42099269435817_2_alg».proof.Proof.Gen.KernelIdeal.Frame
import proofs.«152460_j42099269435817_2_alg».proof.Proof.Spec
import proofs.«152460_j42099269435817_2_alg».proof.Proof.RefForms
import proofs.«152460_j42099269435817_2_alg».proof.Proof.Gen.ReferenceIdeal
import proofs.«152460_j42099269435817_2_alg».proof.Proof.Region0
import proofs.«152460_j42099269435817_2_alg».proof.Proof.Region1
import proofs.«152460_j42099269435817_2_alg».proof.Proof.Region2
import proofs.«152460_j42099269435817_2_alg».proof.Proof.Region3
import proofs.«152460_j42099269435817_2_alg».proof.Proof.Region4
import proofs.«152460_j42099269435817_2_alg».proof.Proof.Region5
import proofs.«152460_j42099269435817_2_alg».proof.Proof.Region6
import proofs.«152460_j42099269435817_2_alg».proof.Proof.Region7
import Idealize.ShloMosaic.Lib.StableHlo.Run

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-! ## Boundary 1 -/
theorem W1_main_arg0 : W1 m ρ c (Proc.devRef .tc main_arg0) = (m ((c : Thread nD τ).loc main_arg0)) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg0) = (m ((c : Thread nD τ).loc main_arg0)))
theorem W1_main_arg1 : W1 m ρ c (Proc.devRef .tc main_arg1) = (m ((c : Thread nD τ).loc main_arg1)) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg1) = (m ((c : Thread nD τ).loc main_arg1)))
theorem W1_main_arg2 : W1 m ρ c (Proc.devRef .tc main_arg2) = (m ((c : Thread nD τ).loc main_arg2)) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg2) = (m ((c : Thread nD τ).loc main_arg2)))
theorem W1_main_arg3 : W1 m ρ c (Proc.devRef .tc main_arg3) = (m ((c : Thread nD τ).loc main_arg3)) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg3) = (m ((c : Thread nD τ).loc main_arg3)))
theorem W1_main_arg4 : W1 m ρ c (Proc.devRef .tc main_arg4) = (m ((c : Thread nD τ).loc main_arg4)) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg4) = (m ((c : Thread nD τ).loc main_arg4)))
theorem W1_main_arg5 : W1 m ρ c (Proc.devRef .tc main_arg5) = (m ((c : Thread nD τ).loc main_arg5)) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg5) = (m ((c : Thread nD τ).loc main_arg5)))
theorem W1_main_arg6 : W1 m ρ c (Proc.devRef .tc main_arg6) = (m ((c : Thread nD τ).loc main_arg6)) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg6) = (m ((c : Thread nD τ).loc main_arg6)))
theorem W1_main_arg7 : W1 m ρ c (Proc.devRef .tc main_arg7) = (m ((c : Thread nD τ).loc main_arg7)) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg7) = (m ((c : Thread nD τ).loc main_arg7)))
theorem W1_main_arg8 : W1 m ρ c (Proc.devRef .tc main_arg8) = (m ((c : Thread nD τ).loc main_arg8)) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg8) = (m ((c : Thread nD τ).loc main_arg8)))
theorem W1_main_arg9 : W1 m ρ c (Proc.devRef .tc main_arg9) = (m ((c : Thread nD τ).loc main_arg9)) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg9) = (m ((c : Thread nD τ).loc main_arg9)))
theorem W1_main_arg10 : W1 m ρ c (Proc.devRef .tc main_arg10) = (m ((c : Thread nD τ).loc main_arg10)) :=
  (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg10) = (m ((c : Thread nD τ).loc main_arg10)))
theorem W1_main_arg11 : W1 m ρ c (Proc.devRef .tc main_arg11) = (m ((c : Thread nD τ).loc main_arg11)) :=
  (StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg11) = (m ((c : Thread nD τ).loc main_arg11)))
theorem W1_main_v3 : W1 m ρ c (Proc.devRef .tc main_v3) = (Cert.Bridge.degE (m ((c : Thread nD τ).loc main_arg2))) := by
  show StableHlo.after hostOps0 (W0 m ρ c) (Proc.devRef .tc main_v3) = _
  unfold hostOps0
  after_results_simp
  rfl
theorem W1_main_v6 : W1 m ρ c (Proc.devRef .tc main_v6) = (Cert.Bridge.degU (m ((c : Thread nD τ).loc main_arg3))) := by
  show StableHlo.after hostOps0 (W0 m ρ c) (Proc.devRef .tc main_v6) = _
  unfold hostOps0
  after_results_simp
  rfl

/-! ## Boundary 2 -/
theorem W2_main_arg0 : W2 m ρ c (Proc.devRef .tc main_arg0) = (m ((c : Thread nD τ).loc main_arg0)) :=
  (W2_of_ne m ρ c main_arg0 (by decide)).trans (W1_main_arg0 m ρ c)
theorem W2_main_arg4 : W2 m ρ c (Proc.devRef .tc main_arg4) = (m ((c : Thread nD τ).loc main_arg4)) :=
  (W2_of_ne m ρ c main_arg4 (by decide)).trans (W1_main_arg4 m ρ c)
theorem W2_main_arg5 : W2 m ρ c (Proc.devRef .tc main_arg5) = (m ((c : Thread nD τ).loc main_arg5)) :=
  (W2_of_ne m ρ c main_arg5 (by decide)).trans (W1_main_arg5 m ρ c)
theorem W2_main_arg2 : W2 m ρ c (Proc.devRef .tc main_arg2) = (m ((c : Thread nD τ).loc main_arg2)) :=
  (W2_of_ne m ρ c main_arg2 (by decide)).trans (W1_main_arg2 m ρ c)
theorem W2_main_arg3 : W2 m ρ c (Proc.devRef .tc main_arg3) = (m ((c : Thread nD τ).loc main_arg3)) :=
  (W2_of_ne m ρ c main_arg3 (by decide)).trans (W1_main_arg3 m ρ c)
theorem W2_main_arg8 : W2 m ρ c (Proc.devRef .tc main_arg8) = (m ((c : Thread nD τ).loc main_arg8)) :=
  (W2_of_ne m ρ c main_arg8 (by decide)).trans (W1_main_arg8 m ρ c)
theorem W2_main_arg9 : W2 m ρ c (Proc.devRef .tc main_arg9) = (m ((c : Thread nD τ).loc main_arg9)) :=
  (W2_of_ne m ρ c main_arg9 (by decide)).trans (W1_main_arg9 m ρ c)
theorem W2_main_arg10 : W2 m ρ c (Proc.devRef .tc main_arg10) = (m ((c : Thread nD τ).loc main_arg10)) :=
  (W2_of_ne m ρ c main_arg10 (by decide)).trans (W1_main_arg10 m ρ c)
theorem W2_main_arg11 : W2 m ρ c (Proc.devRef .tc main_arg11) = (m ((c : Thread nD τ).loc main_arg11)) :=
  (W2_of_ne m ρ c main_arg11 (by decide)).trans (W1_main_arg11 m ρ c)
theorem W2_main_v3 : W2 m ρ c (Proc.devRef .tc main_v3) = (Cert.Bridge.degE (m ((c : Thread nD τ).loc main_arg2))) :=
  (W2_of_ne m ρ c main_v3 (by decide)).trans (W1_main_v3 m ρ c)
theorem W2_main_v6 : W2 m ρ c (Proc.devRef .tc main_v6) = (Cert.Bridge.degU (m ((c : Thread nD τ).loc main_arg3))) :=
  (W2_of_ne m ρ c main_v6 (by decide)).trans (W1_main_v6 m ρ c)
theorem W2_main_v7 : W2 m ρ c (Proc.devRef .tc main_v7) = (Cert.Bridge.linE (m ((c : Thread nD τ).loc main_arg1)) (m ((c : Thread nD τ).loc main_arg6)) (m ((c : Thread nD τ).loc main_arg7))) := by
  refine (W2_arr m ρ c 3).trans ((Cert.Region0.final (V1 m ρ) c).trans ?_)
  have h0 : V1 m ρ c main_arg1 = (m ((c : Thread nD τ).loc main_arg1)) := W1_main_arg1 m ρ c
  have h1 : V1 m ρ c main_arg6 = (m ((c : Thread nD τ).loc main_arg6)) := W1_main_arg6 m ρ c
  have h2 : V1 m ρ c main_arg7 = (m ((c : Thread nD τ).loc main_arg7)) := W1_main_arg7 m ρ c
  rw [h0, h1, h2]
  exact (Cert.RefForms.linE_eq _ _ _).symm

/-! ## Boundary 3 -/
theorem W3_main_v7 : W3 m ρ c (Proc.devRef .tc main_v7) = (Cert.Bridge.linE (m ((c : Thread nD τ).loc main_arg1)) (m ((c : Thread nD τ).loc main_arg6)) (m ((c : Thread nD τ).loc main_arg7))) :=
  (W3_of_ne m ρ c main_v7 (by decide)).trans (W2_main_v7 m ρ c)
theorem W3_main_arg2 : W3 m ρ c (Proc.devRef .tc main_arg2) = (m ((c : Thread nD τ).loc main_arg2)) :=
  (W3_of_ne m ρ c main_arg2 (by decide)).trans (W2_main_arg2 m ρ c)
theorem W3_main_arg3 : W3 m ρ c (Proc.devRef .tc main_arg3) = (m ((c : Thread nD τ).loc main_arg3)) :=
  (W3_of_ne m ρ c main_arg3 (by decide)).trans (W2_main_arg3 m ρ c)
theorem W3_main_arg8 : W3 m ρ c (Proc.devRef .tc main_arg8) = (m ((c : Thread nD τ).loc main_arg8)) :=
  (W3_of_ne m ρ c main_arg8 (by decide)).trans (W2_main_arg8 m ρ c)
theorem W3_main_arg9 : W3 m ρ c (Proc.devRef .tc main_arg9) = (m ((c : Thread nD τ).loc main_arg9)) :=
  (W3_of_ne m ρ c main_arg9 (by decide)).trans (W2_main_arg9 m ρ c)
theorem W3_main_arg10 : W3 m ρ c (Proc.devRef .tc main_arg10) = (m ((c : Thread nD τ).loc main_arg10)) :=
  (W3_of_ne m ρ c main_arg10 (by decide)).trans (W2_main_arg10 m ρ c)
theorem W3_main_arg11 : W3 m ρ c (Proc.devRef .tc main_arg11) = (m ((c : Thread nD τ).loc main_arg11)) :=
  (W3_of_ne m ρ c main_arg11 (by decide)).trans (W2_main_arg11 m ρ c)
theorem W3_main_v3 : W3 m ρ c (Proc.devRef .tc main_v3) = (Cert.Bridge.degE (m ((c : Thread nD τ).loc main_arg2))) :=
  (W3_of_ne m ρ c main_v3 (by decide)).trans (W2_main_v3 m ρ c)
theorem W3_main_v6 : W3 m ρ c (Proc.devRef .tc main_v6) = (Cert.Bridge.degU (m ((c : Thread nD τ).loc main_arg3))) :=
  (W3_of_ne m ρ c main_v6 (by decide)).trans (W2_main_v6 m ρ c)
theorem W3_main_v8 : W3 m ρ c (Proc.devRef .tc main_v8) = (Cert.Bridge.linU (m ((c : Thread nD τ).loc main_arg0)) (m ((c : Thread nD τ).loc main_arg4)) (m ((c : Thread nD τ).loc main_arg5))) := by
  refine (W3_arr m ρ c 3).trans ((Cert.Region1.final (V2 m ρ) c).trans ?_)
  have h0 : V2 m ρ c main_arg0 = (m ((c : Thread nD τ).loc main_arg0)) := W2_main_arg0 m ρ c
  have h1 : V2 m ρ c main_arg4 = (m ((c : Thread nD τ).loc main_arg4)) := W2_main_arg4 m ρ c
  have h2 : V2 m ρ c main_arg5 = (m ((c : Thread nD τ).loc main_arg5)) := W2_main_arg5 m ρ c
  rw [h0, h1, h2]
  exact (Cert.RefForms.linU_eq _ _ _).symm

/-! ## Boundary 4 -/
theorem W4_main_v8 : W4 m ρ c (Proc.devRef .tc main_v8) = (Cert.Bridge.linU (m ((c : Thread nD τ).loc main_arg0)) (m ((c : Thread nD τ).loc main_arg4)) (m ((c : Thread nD τ).loc main_arg5))) :=
  (StableHlo.after_of_forall_not_mem (b := Proc.devRef .tc main_v8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_v8 m ρ c)
theorem W4_main_v7 : W4 m ρ c (Proc.devRef .tc main_v7) = (Cert.Bridge.linE (m ((c : Thread nD τ).loc main_arg1)) (m ((c : Thread nD τ).loc main_arg6)) (m ((c : Thread nD τ).loc main_arg7))) :=
  (StableHlo.after_of_forall_not_mem (b := Proc.devRef .tc main_v7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_v7 m ρ c)
theorem W4_main_arg8 : W4 m ρ c (Proc.devRef .tc main_arg8) = (m ((c : Thread nD τ).loc main_arg8)) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg8 m ρ c)
theorem W4_main_arg9 : W4 m ρ c (Proc.devRef .tc main_arg9) = (m ((c : Thread nD τ).loc main_arg9)) :=
  (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg9 m ρ c)
theorem W4_main_arg10 : W4 m ρ c (Proc.devRef .tc main_arg10) = (m ((c : Thread nD τ).loc main_arg10)) :=
  (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg10 m ρ c)
theorem W4_main_arg11 : W4 m ρ c (Proc.devRef .tc main_arg11) = (m ((c : Thread nD τ).loc main_arg11)) :=
  (StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg11 m ρ c)
theorem W4_main_arg2 : W4 m ρ c (Proc.devRef .tc main_arg2) = (m ((c : Thread nD τ).loc main_arg2)) :=
  (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg2 m ρ c)
theorem W4_main_arg3 : W4 m ρ c (Proc.devRef .tc main_arg3) = (m ((c : Thread nD τ).loc main_arg3)) :=
  (StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg3 m ρ c)
theorem W4_main_v3 : W4 m ρ c (Proc.devRef .tc main_v3) = (Cert.Bridge.degE (m ((c : Thread nD τ).loc main_arg2))) :=
  (StableHlo.after_of_forall_not_mem (b := Proc.devRef .tc main_v3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_v3 m ρ c)
theorem W4_main_v6 : W4 m ρ c (Proc.devRef .tc main_v6) = (Cert.Bridge.degU (m ((c : Thread nD τ).loc main_arg3))) :=
  (StableHlo.after_of_forall_not_mem (b := Proc.devRef .tc main_v6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_v6 m ρ c)
theorem W4_main_v25 : W4 m ρ c (Proc.devRef .tc main_v25) = (Cert.Bridge.aggU (Cert.Bridge.linE (m ((c : Thread nD τ).loc main_arg1)) (m ((c : Thread nD τ).loc main_arg6)) (m ((c : Thread nD τ).loc main_arg7))) (m ((c : Thread nD τ).loc main_arg2)) (m ((c : Thread nD τ).loc main_arg3))) := by
  show StableHlo.after hostOps2 (W3 m ρ c) (Proc.devRef .tc main_v25) = _
  unfold hostOps2
  after_results_simp
  rw [W3_main_v7 m ρ c, W3_main_arg2 m ρ c, W3_main_arg3 m ρ c]
  rfl
theorem W4_main_v28 : W4 m ρ c (Proc.devRef .tc main_v28) = (Cert.Bridge.aggE (Cert.Bridge.linU (m ((c : Thread nD τ).loc main_arg0)) (m ((c : Thread nD τ).loc main_arg4)) (m ((c : Thread nD τ).loc main_arg5))) (m ((c : Thread nD τ).loc main_arg2)) (m ((c : Thread nD τ).loc main_arg3))) := by
  show StableHlo.after hostOps2 (W3 m ρ c) (Proc.devRef .tc main_v28) = _
  unfold hostOps2
  after_results_simp
  rw [W3_main_v8 m ρ c, W3_main_arg2 m ρ c, W3_main_arg3 m ρ c]
  rfl
theorem W4_main_v29 : W4 m ρ c (Proc.devRef .tc main_v29) = (shapeCast S200000x1 (Cert.Bridge.degU (m ((c : Thread nD τ).loc main_arg3))) shapeCasts_S200000_S200000x1) := by
  show StableHlo.after hostOps2 (W3 m ρ c) (Proc.devRef .tc main_v29) = _
  unfold hostOps2
  after_results_simp
  rw [W3_main_v6 m ρ c]
  rfl

/-! ## Boundary 5 -/
theorem W5_main_v28 : W5 m ρ c (Proc.devRef .tc main_v28) = (Cert.Bridge.aggE (Cert.Bridge.linU (m ((c : Thread nD τ).loc main_arg0)) (m ((c : Thread nD τ).loc main_arg4)) (m ((c : Thread nD τ).loc main_arg5))) (m ((c : Thread nD τ).loc main_arg2)) (m ((c : Thread nD τ).loc main_arg3))) :=
  (W5_of_ne m ρ c main_v28 (by decide)).trans (W4_main_v28 m ρ c)
theorem W5_main_v7 : W5 m ρ c (Proc.devRef .tc main_v7) = (Cert.Bridge.linE (m ((c : Thread nD τ).loc main_arg1)) (m ((c : Thread nD τ).loc main_arg6)) (m ((c : Thread nD τ).loc main_arg7))) :=
  (W5_of_ne m ρ c main_v7 (by decide)).trans (W4_main_v7 m ρ c)
theorem W5_main_v3 : W5 m ρ c (Proc.devRef .tc main_v3) = (Cert.Bridge.degE (m ((c : Thread nD τ).loc main_arg2))) :=
  (W5_of_ne m ρ c main_v3 (by decide)).trans (W4_main_v3 m ρ c)
theorem W5_main_arg8 : W5 m ρ c (Proc.devRef .tc main_arg8) = (m ((c : Thread nD τ).loc main_arg8)) :=
  (W5_of_ne m ρ c main_arg8 (by decide)).trans (W4_main_arg8 m ρ c)
theorem W5_main_arg9 : W5 m ρ c (Proc.devRef .tc main_arg9) = (m ((c : Thread nD τ).loc main_arg9)) :=
  (W5_of_ne m ρ c main_arg9 (by decide)).trans (W4_main_arg9 m ρ c)
theorem W5_main_arg10 : W5 m ρ c (Proc.devRef .tc main_arg10) = (m ((c : Thread nD τ).loc main_arg10)) :=
  (W5_of_ne m ρ c main_arg10 (by decide)).trans (W4_main_arg10 m ρ c)
theorem W5_main_arg11 : W5 m ρ c (Proc.devRef .tc main_arg11) = (m ((c : Thread nD τ).loc main_arg11)) :=
  (W5_of_ne m ρ c main_arg11 (by decide)).trans (W4_main_arg11 m ρ c)
theorem W5_main_arg2 : W5 m ρ c (Proc.devRef .tc main_arg2) = (m ((c : Thread nD τ).loc main_arg2)) :=
  (W5_of_ne m ρ c main_arg2 (by decide)).trans (W4_main_arg2 m ρ c)
theorem W5_main_arg3 : W5 m ρ c (Proc.devRef .tc main_arg3) = (m ((c : Thread nD τ).loc main_arg3)) :=
  (W5_of_ne m ρ c main_arg3 (by decide)).trans (W4_main_arg3 m ρ c)
theorem W5_main_v6 : W5 m ρ c (Proc.devRef .tc main_v6) = (Cert.Bridge.degU (m ((c : Thread nD τ).loc main_arg3))) :=
  (W5_of_ne m ρ c main_v6 (by decide)).trans (W4_main_v6 m ρ c)
theorem W5_main_v30 : W5 m ρ c (Proc.devRef .tc main_v30) = (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) := by
  refine (W5_arr m ρ c 3).trans ((Cert.Region2.final (V4 m ρ) c).trans ?_)
  have h0 : V4 m ρ c main_v25 = (Cert.Bridge.aggU (Cert.Bridge.linE (m ((c : Thread nD τ).loc main_arg1)) (m ((c : Thread nD τ).loc main_arg6)) (m ((c : Thread nD τ).loc main_arg7))) (m ((c : Thread nD τ).loc main_arg2)) (m ((c : Thread nD τ).loc main_arg3))) := W4_main_v25 m ρ c
  have h1 : V4 m ρ c main_v8 = (Cert.Bridge.linU (m ((c : Thread nD τ).loc main_arg0)) (m ((c : Thread nD τ).loc main_arg4)) (m ((c : Thread nD τ).loc main_arg5))) := W4_main_v8 m ρ c
  have h2 : V4 m ρ c main_v29 = (shapeCast S200000x1 (Cert.Bridge.degU (m ((c : Thread nD τ).loc main_arg3))) shapeCasts_S200000_S200000x1) := W4_main_v29 m ρ c
  rw [h0, h1, h2]
  exact (Cert.RefForms.normU_eq _ _ _ _).symm

/-! ## Boundary 6 -/
theorem W6_main_v28 : W6 m ρ c (Proc.devRef .tc main_v28) = (Cert.Bridge.aggE (Cert.Bridge.linU (m ((c : Thread nD τ).loc main_arg0)) (m ((c : Thread nD τ).loc main_arg4)) (m ((c : Thread nD τ).loc main_arg5))) (m ((c : Thread nD τ).loc main_arg2)) (m ((c : Thread nD τ).loc main_arg3))) :=
  (StableHlo.after_of_forall_not_mem (b := Proc.devRef .tc main_v28) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_v28 m ρ c)
theorem W6_main_v7 : W6 m ρ c (Proc.devRef .tc main_v7) = (Cert.Bridge.linE (m ((c : Thread nD τ).loc main_arg1)) (m ((c : Thread nD τ).loc main_arg6)) (m ((c : Thread nD τ).loc main_arg7))) :=
  (StableHlo.after_of_forall_not_mem (b := Proc.devRef .tc main_v7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_v7 m ρ c)
theorem W6_main_arg8 : W6 m ρ c (Proc.devRef .tc main_arg8) = (m ((c : Thread nD τ).loc main_arg8)) :=
  (StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_arg8 m ρ c)
theorem W6_main_arg9 : W6 m ρ c (Proc.devRef .tc main_arg9) = (m ((c : Thread nD τ).loc main_arg9)) :=
  (StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_arg9 m ρ c)
theorem W6_main_arg10 : W6 m ρ c (Proc.devRef .tc main_arg10) = (m ((c : Thread nD τ).loc main_arg10)) :=
  (StableHlo.after_of_forall_not_mem (b := Proc.devRef .tc main_arg10) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_arg10 m ρ c)
theorem W6_main_arg11 : W6 m ρ c (Proc.devRef .tc main_arg11) = (m ((c : Thread nD τ).loc main_arg11)) :=
  (StableHlo.after_of_forall_not_mem (b := Proc.devRef .tc main_arg11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_arg11 m ρ c)
theorem W6_main_v30 : W6 m ρ c (Proc.devRef .tc main_v30) = (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) :=
  (StableHlo.after_of_forall_not_mem (b := Proc.devRef .tc main_v30) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_v30 m ρ c)
theorem W6_main_arg2 : W6 m ρ c (Proc.devRef .tc main_arg2) = (m ((c : Thread nD τ).loc main_arg2)) :=
  (StableHlo.after_of_forall_not_mem (b := Proc.devRef .tc main_arg2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_arg2 m ρ c)
theorem W6_main_arg3 : W6 m ρ c (Proc.devRef .tc main_arg3) = (m ((c : Thread nD τ).loc main_arg3)) :=
  (StableHlo.after_of_forall_not_mem (b := Proc.devRef .tc main_arg3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_arg3 m ρ c)
theorem W6_main_v6 : W6 m ρ c (Proc.devRef .tc main_v6) = (Cert.Bridge.degU (m ((c : Thread nD τ).loc main_arg3))) :=
  (StableHlo.after_of_forall_not_mem (b := Proc.devRef .tc main_v6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_v6 m ρ c)
theorem W6_main_v3 : W6 m ρ c (Proc.devRef .tc main_v3) = (Cert.Bridge.degE (m ((c : Thread nD τ).loc main_arg2))) :=
  (StableHlo.after_of_forall_not_mem (b := Proc.devRef .tc main_v3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_v3 m ρ c)
theorem W6_main_v31 : W6 m ρ c (Proc.devRef .tc main_v31) = (shapeCast S50000x1 (Cert.Bridge.degE (m ((c : Thread nD τ).loc main_arg2))) shapeCasts_S50000_S50000x1) := by
  show StableHlo.after hostOps3 (W5 m ρ c) (Proc.devRef .tc main_v31) = _
  unfold hostOps3
  after_results_simp
  rw [W5_main_v3 m ρ c]
  rfl

/-! ## Boundary 7 -/
theorem W7_main_arg10 : W7 m ρ c (Proc.devRef .tc main_arg10) = (m ((c : Thread nD τ).loc main_arg10)) :=
  (W7_of_ne m ρ c main_arg10 (by decide)).trans (W6_main_arg10 m ρ c)
theorem W7_main_arg11 : W7 m ρ c (Proc.devRef .tc main_arg11) = (m ((c : Thread nD τ).loc main_arg11)) :=
  (W7_of_ne m ρ c main_arg11 (by decide)).trans (W6_main_arg11 m ρ c)
theorem W7_main_v30 : W7 m ρ c (Proc.devRef .tc main_v30) = (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) :=
  (W7_of_ne m ρ c main_v30 (by decide)).trans (W6_main_v30 m ρ c)
theorem W7_main_arg8 : W7 m ρ c (Proc.devRef .tc main_arg8) = (m ((c : Thread nD τ).loc main_arg8)) :=
  (W7_of_ne m ρ c main_arg8 (by decide)).trans (W6_main_arg8 m ρ c)
theorem W7_main_arg9 : W7 m ρ c (Proc.devRef .tc main_arg9) = (m ((c : Thread nD τ).loc main_arg9)) :=
  (W7_of_ne m ρ c main_arg9 (by decide)).trans (W6_main_arg9 m ρ c)
theorem W7_main_arg2 : W7 m ρ c (Proc.devRef .tc main_arg2) = (m ((c : Thread nD τ).loc main_arg2)) :=
  (W7_of_ne m ρ c main_arg2 (by decide)).trans (W6_main_arg2 m ρ c)
theorem W7_main_arg3 : W7 m ρ c (Proc.devRef .tc main_arg3) = (m ((c : Thread nD τ).loc main_arg3)) :=
  (W7_of_ne m ρ c main_arg3 (by decide)).trans (W6_main_arg3 m ρ c)
theorem W7_main_v6 : W7 m ρ c (Proc.devRef .tc main_v6) = (Cert.Bridge.degU (m ((c : Thread nD τ).loc main_arg3))) :=
  (W7_of_ne m ρ c main_v6 (by decide)).trans (W6_main_v6 m ρ c)
theorem W7_main_v3 : W7 m ρ c (Proc.devRef .tc main_v3) = (Cert.Bridge.degE (m ((c : Thread nD τ).loc main_arg2))) :=
  (W7_of_ne m ρ c main_v3 (by decide)).trans (W6_main_v3 m ρ c)
theorem W7_main_v32 : W7 m ρ c (Proc.devRef .tc main_v32) = (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) := by
  refine (W7_arr m ρ c 3).trans ((Cert.Region3.final (V6 m ρ) c).trans ?_)
  have h0 : V6 m ρ c main_v28 = (Cert.Bridge.aggE (Cert.Bridge.linU (m ((c : Thread nD τ).loc main_arg0)) (m ((c : Thread nD τ).loc main_arg4)) (m ((c : Thread nD τ).loc main_arg5))) (m ((c : Thread nD τ).loc main_arg2)) (m ((c : Thread nD τ).loc main_arg3))) := W6_main_v28 m ρ c
  have h1 : V6 m ρ c main_v7 = (Cert.Bridge.linE (m ((c : Thread nD τ).loc main_arg1)) (m ((c : Thread nD τ).loc main_arg6)) (m ((c : Thread nD τ).loc main_arg7))) := W6_main_v7 m ρ c
  have h2 : V6 m ρ c main_v31 = (shapeCast S50000x1 (Cert.Bridge.degE (m ((c : Thread nD τ).loc main_arg2))) shapeCasts_S50000_S50000x1) := W6_main_v31 m ρ c
  rw [h0, h1, h2]
  exact (Cert.RefForms.normE_eq _ _ _ _).symm

/-! ## Boundary 8 -/
theorem W8_main_v30 : W8 m ρ c (Proc.devRef .tc main_v30) = (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) :=
  (W8_of_ne m ρ c main_v30 (by decide)).trans (W7_main_v30 m ρ c)
theorem W8_main_arg8 : W8 m ρ c (Proc.devRef .tc main_arg8) = (m ((c : Thread nD τ).loc main_arg8)) :=
  (W8_of_ne m ρ c main_arg8 (by decide)).trans (W7_main_arg8 m ρ c)
theorem W8_main_arg9 : W8 m ρ c (Proc.devRef .tc main_arg9) = (m ((c : Thread nD τ).loc main_arg9)) :=
  (W8_of_ne m ρ c main_arg9 (by decide)).trans (W7_main_arg9 m ρ c)
theorem W8_main_arg2 : W8 m ρ c (Proc.devRef .tc main_arg2) = (m ((c : Thread nD τ).loc main_arg2)) :=
  (W8_of_ne m ρ c main_arg2 (by decide)).trans (W7_main_arg2 m ρ c)
theorem W8_main_arg3 : W8 m ρ c (Proc.devRef .tc main_arg3) = (m ((c : Thread nD τ).loc main_arg3)) :=
  (W8_of_ne m ρ c main_arg3 (by decide)).trans (W7_main_arg3 m ρ c)
theorem W8_main_v6 : W8 m ρ c (Proc.devRef .tc main_v6) = (Cert.Bridge.degU (m ((c : Thread nD τ).loc main_arg3))) :=
  (W8_of_ne m ρ c main_v6 (by decide)).trans (W7_main_v6 m ρ c)
theorem W8_main_v3 : W8 m ρ c (Proc.devRef .tc main_v3) = (Cert.Bridge.degE (m ((c : Thread nD τ).loc main_arg2))) :=
  (W8_of_ne m ρ c main_v3 (by decide)).trans (W7_main_v3 m ρ c)
theorem W8_main_v33 : W8 m ρ c (Proc.devRef .tc main_v33) = (Cert.Bridge.linE (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg10)) (m ((c : Thread nD τ).loc main_arg11))) := by
  refine (W8_arr m ρ c 3).trans ((Cert.Region4.final (V7 m ρ) c).trans ?_)
  have h0 : V7 m ρ c main_v32 = (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) := W7_main_v32 m ρ c
  have h1 : V7 m ρ c main_arg10 = (m ((c : Thread nD τ).loc main_arg10)) := W7_main_arg10 m ρ c
  have h2 : V7 m ρ c main_arg11 = (m ((c : Thread nD τ).loc main_arg11)) := W7_main_arg11 m ρ c
  rw [h0, h1, h2]
  exact (Cert.RefForms.linE_eq _ _ _).symm

/-! ## Boundary 9 -/
theorem W9_main_v33 : W9 m ρ c (Proc.devRef .tc main_v33) = (Cert.Bridge.linE (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg10)) (m ((c : Thread nD τ).loc main_arg11))) :=
  (W9_of_ne m ρ c main_v33 (by decide)).trans (W8_main_v33 m ρ c)
theorem W9_main_arg2 : W9 m ρ c (Proc.devRef .tc main_arg2) = (m ((c : Thread nD τ).loc main_arg2)) :=
  (W9_of_ne m ρ c main_arg2 (by decide)).trans (W8_main_arg2 m ρ c)
theorem W9_main_arg3 : W9 m ρ c (Proc.devRef .tc main_arg3) = (m ((c : Thread nD τ).loc main_arg3)) :=
  (W9_of_ne m ρ c main_arg3 (by decide)).trans (W8_main_arg3 m ρ c)
theorem W9_main_v6 : W9 m ρ c (Proc.devRef .tc main_v6) = (Cert.Bridge.degU (m ((c : Thread nD τ).loc main_arg3))) :=
  (W9_of_ne m ρ c main_v6 (by decide)).trans (W8_main_v6 m ρ c)
theorem W9_main_v3 : W9 m ρ c (Proc.devRef .tc main_v3) = (Cert.Bridge.degE (m ((c : Thread nD τ).loc main_arg2))) :=
  (W9_of_ne m ρ c main_v3 (by decide)).trans (W8_main_v3 m ρ c)
theorem W9_main_v34 : W9 m ρ c (Proc.devRef .tc main_v34) = (Cert.Bridge.linU (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9))) := by
  refine (W9_arr m ρ c 3).trans ((Cert.Region5.final (V8 m ρ) c).trans ?_)
  have h0 : V8 m ρ c main_v30 = (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) := W8_main_v30 m ρ c
  have h1 : V8 m ρ c main_arg8 = (m ((c : Thread nD τ).loc main_arg8)) := W8_main_arg8 m ρ c
  have h2 : V8 m ρ c main_arg9 = (m ((c : Thread nD τ).loc main_arg9)) := W8_main_arg9 m ρ c
  rw [h0, h1, h2]
  exact (Cert.RefForms.linU_eq _ _ _).symm

/-! ## Boundary 10 -/
theorem W10_main_v34 : W10 m ρ c (Proc.devRef .tc main_v34) = (Cert.Bridge.linU (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9))) :=
  (StableHlo.after_of_forall_not_mem (b := Proc.devRef .tc main_v34) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W9_main_v34 m ρ c)
theorem W10_main_v33 : W10 m ρ c (Proc.devRef .tc main_v33) = (Cert.Bridge.linE (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg10)) (m ((c : Thread nD τ).loc main_arg11))) :=
  (StableHlo.after_of_forall_not_mem (b := Proc.devRef .tc main_v33) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W9_main_v33 m ρ c)
theorem W10_main_v3 : W10 m ρ c (Proc.devRef .tc main_v3) = (Cert.Bridge.degE (m ((c : Thread nD τ).loc main_arg2))) :=
  (StableHlo.after_of_forall_not_mem (b := Proc.devRef .tc main_v3) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W9_main_v3 m ρ c)
theorem W10_main_v51 : W10 m ρ c (Proc.devRef .tc main_v51) = (Cert.Bridge.aggU (Cert.Bridge.linE (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg10)) (m ((c : Thread nD τ).loc main_arg11))) (m ((c : Thread nD τ).loc main_arg2)) (m ((c : Thread nD τ).loc main_arg3))) := by
  show StableHlo.after hostOps6 (W9 m ρ c) (Proc.devRef .tc main_v51) = _
  unfold hostOps6
  after_results_simp
  rw [W9_main_v33 m ρ c, W9_main_arg2 m ρ c, W9_main_arg3 m ρ c]
  rfl
theorem W10_main_v54 : W10 m ρ c (Proc.devRef .tc main_v54) = (Cert.Bridge.aggE (Cert.Bridge.linU (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9))) (m ((c : Thread nD τ).loc main_arg2)) (m ((c : Thread nD τ).loc main_arg3))) := by
  show StableHlo.after hostOps6 (W9 m ρ c) (Proc.devRef .tc main_v54) = _
  unfold hostOps6
  after_results_simp
  rw [W9_main_v34 m ρ c, W9_main_arg2 m ρ c, W9_main_arg3 m ρ c]
  rfl
theorem W10_main_v55 : W10 m ρ c (Proc.devRef .tc main_v55) = (shapeCast S200000x1 (Cert.Bridge.degU (m ((c : Thread nD τ).loc main_arg3))) shapeCasts_S200000_S200000x1) := by
  show StableHlo.after hostOps6 (W9 m ρ c) (Proc.devRef .tc main_v55) = _
  unfold hostOps6
  after_results_simp
  rw [W9_main_v6 m ρ c]
  rfl

/-! ## Boundary 11 -/
theorem W11_main_v54 : W11 m ρ c (Proc.devRef .tc main_v54) = (Cert.Bridge.aggE (Cert.Bridge.linU (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9))) (m ((c : Thread nD τ).loc main_arg2)) (m ((c : Thread nD τ).loc main_arg3))) :=
  (W11_of_ne m ρ c main_v54 (by decide)).trans (W10_main_v54 m ρ c)
theorem W11_main_v33 : W11 m ρ c (Proc.devRef .tc main_v33) = (Cert.Bridge.linE (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg10)) (m ((c : Thread nD τ).loc main_arg11))) :=
  (W11_of_ne m ρ c main_v33 (by decide)).trans (W10_main_v33 m ρ c)
theorem W11_main_v3 : W11 m ρ c (Proc.devRef .tc main_v3) = (Cert.Bridge.degE (m ((c : Thread nD τ).loc main_arg2))) :=
  (W11_of_ne m ρ c main_v3 (by decide)).trans (W10_main_v3 m ρ c)
theorem W11_main_v56 : W11 m ρ c (Proc.devRef .tc main_v56) = (Cert.Bridge.layerU (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9)) (m ((c : Thread nD τ).loc main_arg10)) (m ((c : Thread nD τ).loc main_arg11)) (m ((c : Thread nD τ).loc main_arg2)) (m ((c : Thread nD τ).loc main_arg3))) := by
  refine (W11_arr m ρ c 3).trans ((Cert.Region6.final (V10 m ρ) c).trans ?_)
  have h0 : V10 m ρ c main_v51 = (Cert.Bridge.aggU (Cert.Bridge.linE (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg10)) (m ((c : Thread nD τ).loc main_arg11))) (m ((c : Thread nD τ).loc main_arg2)) (m ((c : Thread nD τ).loc main_arg3))) := W10_main_v51 m ρ c
  have h1 : V10 m ρ c main_v34 = (Cert.Bridge.linU (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9))) := W10_main_v34 m ρ c
  have h2 : V10 m ρ c main_v55 = (shapeCast S200000x1 (Cert.Bridge.degU (m ((c : Thread nD τ).loc main_arg3))) shapeCasts_S200000_S200000x1) := W10_main_v55 m ρ c
  rw [h0, h1, h2]
  exact (Cert.RefForms.normU_eq _ _ _ _).symm

/-! ## Boundary 12 -/
theorem W12_main_v56 : W12 m ρ c (Proc.devRef .tc main_v56) = (Cert.Bridge.layerU (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9)) (m ((c : Thread nD τ).loc main_arg10)) (m ((c : Thread nD τ).loc main_arg11)) (m ((c : Thread nD τ).loc main_arg2)) (m ((c : Thread nD τ).loc main_arg3))) :=
  (StableHlo.after_of_forall_not_mem (b := Proc.devRef .tc main_v56) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W11_main_v56 m ρ c)
theorem W12_main_v54 : W12 m ρ c (Proc.devRef .tc main_v54) = (Cert.Bridge.aggE (Cert.Bridge.linU (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9))) (m ((c : Thread nD τ).loc main_arg2)) (m ((c : Thread nD τ).loc main_arg3))) :=
  (StableHlo.after_of_forall_not_mem (b := Proc.devRef .tc main_v54) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W11_main_v54 m ρ c)
theorem W12_main_v33 : W12 m ρ c (Proc.devRef .tc main_v33) = (Cert.Bridge.linE (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg10)) (m ((c : Thread nD τ).loc main_arg11))) :=
  (StableHlo.after_of_forall_not_mem (b := Proc.devRef .tc main_v33) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W11_main_v33 m ρ c)
theorem W12_main_v57 : W12 m ρ c (Proc.devRef .tc main_v57) = (shapeCast S50000x1 (Cert.Bridge.degE (m ((c : Thread nD τ).loc main_arg2))) shapeCasts_S50000_S50000x1) := by
  show StableHlo.after hostOps7 (W11 m ρ c) (Proc.devRef .tc main_v57) = _
  unfold hostOps7
  after_results_simp
  rw [W11_main_v3 m ρ c]
  rfl

/-! ## Boundary 13 -/
theorem W13_main_v56 : W13 m ρ c (Proc.devRef .tc main_v56) = (Cert.Bridge.layerU (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9)) (m ((c : Thread nD τ).loc main_arg10)) (m ((c : Thread nD τ).loc main_arg11)) (m ((c : Thread nD τ).loc main_arg2)) (m ((c : Thread nD τ).loc main_arg3))) :=
  (W13_of_ne m ρ c main_v56 (by decide)).trans (W12_main_v56 m ρ c)
theorem W13_main_v58 : W13 m ρ c (Proc.devRef .tc main_v58) = (Cert.Bridge.layerE (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9)) (m ((c : Thread nD τ).loc main_arg10)) (m ((c : Thread nD τ).loc main_arg11)) (m ((c : Thread nD τ).loc main_arg2)) (m ((c : Thread nD τ).loc main_arg3))) := by
  refine (W13_arr m ρ c 3).trans ((Cert.Region7.final (V12 m ρ) c).trans ?_)
  have h0 : V12 m ρ c main_v54 = (Cert.Bridge.aggE (Cert.Bridge.linU (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9))) (m ((c : Thread nD τ).loc main_arg2)) (m ((c : Thread nD τ).loc main_arg3))) := W12_main_v54 m ρ c
  have h1 : V12 m ρ c main_v33 = (Cert.Bridge.linE (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg10)) (m ((c : Thread nD τ).loc main_arg11))) := W12_main_v33 m ρ c
  have h2 : V12 m ρ c main_v57 = (shapeCast S50000x1 (Cert.Bridge.degE (m ((c : Thread nD τ).loc main_arg2))) shapeCasts_S50000_S50000x1) := W12_main_v57 m ρ c
  rw [h0, h1, h2]
  exact (Cert.RefForms.normE_eq _ _ _ _).symm

end Cert.KernelIdeal.Chain

end
-- ==== Proof.RefValue.lean ====
/-
  The reference's two results, as the two-layer aggregation of the argument arrays: the composed term its run ends at
  is, operation by operation, two applications of one layer (affine maps, aggregates along the edges, degrees, the
  normalisation), the degrees recomputed in each layer from the same edge lists.
-/
import proofs.«152460_j42099269435817_2_alg».proof.Proof.Spec
import proofs.«152460_j42099269435817_2_alg».proof.Proof.Gen.ReferenceIdeal.Run

set_option maxRecDepth 16384

noncomputable section

namespace Cert.ReferenceIdeal.RefValue

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

/-- The user result: layer two's user features of layer one's features. -/
theorem users_eq : Cert.ReferenceIdeal.Value.res_main_v97 (F := Ideal) m c
    = Cert.Bridge.layerU (Cert.Bridge.layerU (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg2)) (m ((c.tc : Thread nD τ).loc main_arg3))) (Cert.Bridge.layerE (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg2)) (m ((c.tc : Thread nD τ).loc main_arg3))) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg2)) (m ((c.tc : Thread nD τ).loc main_arg3)) := by
  unfold Cert.ReferenceIdeal.Value.res_main_v97
  rfl

/-- The event result: layer two's event features of layer one's features. -/
theorem events_eq : Cert.ReferenceIdeal.Value.res_main_v92 (F := Ideal) m c
    = Cert.Bridge.layerE (Cert.Bridge.layerU (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg2)) (m ((c.tc : Thread nD τ).loc main_arg3))) (Cert.Bridge.layerE (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg2)) (m ((c.tc : Thread nD τ).loc main_arg3))) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg2)) (m ((c.tc : Thread nD τ).loc main_arg3)) := by
  unfold Cert.ReferenceIdeal.Value.res_main_v92
  rfl

end Cert.ReferenceIdeal.RefValue

end
-- ==== Proof.lean ====
/-
  Two layers of heterogeneous message passing — users and events, a million edges between them — computed by eight
  gridded kernel regions among stretches of host gathers and scatter-adds, against the same computation written with
  whole-array host operations.

  One layer maps the user rows and the event rows through affine maps x · Wᵀ + b, sends every event's mapped row along
  its edges to be added up at the users (and every user's to the events), adds the node's own mapped row, and divides by
  the node's degree plus one. In the kernel program the affine maps and the normalisation are regions over blocks of
  10000 rows (the matrix unit's product of operands rounded to bf16 — on the extended reals the rounding is the
  identity and the product into a zero accumulator is the plain sum over the contracted axis); the gathers, the
  scatter-adds and the degree counts are host operations, the same ones the reference uses. So on the extended reals
  both programs compute, entry by entry,
      lin(r, q)  = Σ k, x(r, k) · W(q, k) + b(q)
      norm(r, q) = (agg(r, q) + lin(r, q)) / (deg(r) + 1)
  with identical aggregates, and no algebraic law beyond reading each operation at an index is needed; the
  precondition is not used.

  The kernel side: the run of @main's thirteen segments ends with every unscoped buffer at the fold of the host
  stretches and the regions' write-backs (RunValues); each region's blocks tile its result array and block t is the
  body's function of the staged blocks (Region0 … Region7 over Blocks); walking the boundaries gives the two results as
  the two-layer term of the arguments (Chain). The reference side: its generated run ends at a composed term that is
  that same two-layer term (RefValue). The host spellings of the row-wise steps meet the regions' entry formulas in
  RefForms.
-/
import proofs.«152460_j42099269435817_2_alg».proof.Defs
import proofs.«152460_j42099269435817_2_alg».proof.Proof.Gen.Kernel
import proofs.«152460_j42099269435817_2_alg».proof.Proof.Gen.Kernel.Skeleton
import proofs.«152460_j42099269435817_2_alg».proof.Proof.Gen.Kernel.Launch
import proofs.«152460_j42099269435817_2_alg».proof.Proof.Gen.Kernel.Points
import proofs.«152460_j42099269435817_2_alg».proof.Proof.Gen.Kernel.Frame
import proofs.«152460_j42099269435817_2_alg».proof.Proof.Gen.KernelIdeal
import proofs.«152460_j42099269435817_2_alg».proof.Proof.Gen.KernelIdeal.Skeleton
import proofs.«152460_j42099269435817_2_alg».proof.Proof.Gen.KernelIdeal.Launch
import proofs.«152460_j42099269435817_2_alg».proof.Proof.Gen.KernelIdeal.Points
import proofs.«152460_j42099269435817_2_alg».proof.Proof.Gen.KernelIdeal.Frame
import proofs.«152460_j42099269435817_2_alg».proof.Proof.Gen.ReferenceIdeal
import proofs.«152460_j42099269435817_2_alg».proof.Proof.Gen.Pre_finite_inputs
import proofs.«152460_j42099269435817_2_alg».proof.Proof.Gen.ReferenceIdeal.Run
import proofs.«152460_j42099269435817_2_alg».proof.Proof.Gen.ReferenceIdeal.Read
import proofs.«152460_j42099269435817_2_alg».proof.Proof.RunValues
import proofs.«152460_j42099269435817_2_alg».proof.Proof.Chain
import proofs.«152460_j42099269435817_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

section KernelRun

open Cert.KernelIdeal Cert.KernelIdeal.Gen

/-- The idealized kernel's run: it terminates, nothing faulting, with the two results at the two-layer aggregation of
    the arguments and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v56) = (Cert.Bridge.layerU (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9)) (m ((c : Thread nD τ).loc main_arg10)) (m ((c : Thread nD τ).loc main_arg11)) (m ((c : Thread nD τ).loc main_arg2)) (m ((c : Thread nD τ).loc main_arg3)))
      ∧ r.2.mem ((c.tc : Thread nD τ).loc main_v58) = (Cert.Bridge.layerE (Cert.Bridge.layerU (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (Cert.Bridge.layerE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3))) (m ((c : Thread nD τ).loc main_arg8)) (m ((c : Thread nD τ).loc main_arg9)) (m ((c : Thread nD τ).loc main_arg10)) (m ((c : Thread nD τ).loc main_arg11)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (Cert.KernelIdeal.Chain.W13_main_v56 m ρ c),
      (h c).2.1.trans (Cert.KernelIdeal.Chain.W13_main_v58 m ρ c), (h c).2.2⟩)
    (Cert.KernelIdeal.RunValue.run_values m ρ)

end KernelRun

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the two-layer aggregation of those arguments. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11⟩ := hagree c
    rw [Cert.ReferenceIdeal.RefValue.users_eq, e0, e1, e2, e3, e4, e5, e6, e7, e8, e9, e10, e11]
  · obtain ⟨e0, e1, e2, e3, e4, e5, e6, e7, e8, e9, e10, e11⟩ := hagree c
    rw [Cert.ReferenceIdeal.RefValue.events_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
